-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩
abbrev S11008x32x128 : Shape := ⟨3, ![11008, 32, 128]⟩
abbrev S11008x32 : Shape := ⟨2, ![11008, 32]⟩
abbrev S11008x32x1 : Shape := ⟨3, ![11008, 32, 1]⟩
abbrev S4096x86x128 : Shape := ⟨3, ![4096, 86, 128]⟩
abbrev S4096x86 : Shape := ⟨2, ![4096, 86]⟩
abbrev S4096x86x1 : Shape := ⟨3, ![4096, 86, 1]⟩
abbrev S512x4096 : Shape := ⟨2, ![512, 4096]⟩
abbrev S256x4096 : Shape := ⟨2, ![256, 4096]⟩
abbrev S512x256 : Shape := ⟨2, ![512, 256]⟩
abbrev S512x2x128 : Shape := ⟨3, ![512, 2, 128]⟩
abbrev S512x2 : Shape := ⟨2, ![512, 2]⟩
abbrev S512x2x1 : Shape := ⟨3, ![512, 2, 1]⟩
abbrev S4096x256 : Shape := ⟨2, ![4096, 256]⟩

abbrev nBuf : Space → Nat
  | .hbm => 112
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x32x128, .f32⟩
  | .hbm, ⟨6, _⟩ => ⟨S4096x32x128, .f32⟩
  | .hbm, ⟨7, _⟩ => ⟨S_, .f32⟩
  | .hbm, ⟨8, _⟩ => ⟨S4096x32, .f32⟩
  | .hbm, ⟨9, _⟩ => ⟨S4096x32x1, .f32⟩
  | .hbm, ⟨10, _⟩ => ⟨S_, .f32⟩
  | .hbm, ⟨11, _⟩ => ⟨S4096x32x1, .f32⟩
  | .hbm, ⟨12, _⟩ => ⟨S4096x32x1, .f32⟩
  | .hbm, ⟨13, _⟩ => ⟨S_, .f32⟩
  | .hbm, ⟨14, _⟩ => ⟨S4096x32x1, .f32⟩
  | .hbm, ⟨15, _⟩ => ⟨S4096x32x1, .f32⟩
  | .hbm, ⟨16, _⟩ => ⟨S4096x32x128, .f32⟩
  | .hbm, ⟨17, _⟩ => ⟨S4096x32x128, .f32⟩
  | .hbm, ⟨18, _⟩ => ⟨S4096x32x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x32x128, .f32⟩
  | .hbm, ⟨23, _⟩ => ⟨S4096x32x128, .f32⟩
  | .hbm, ⟨24, _⟩ => ⟨S_, .f32⟩
  | .hbm, ⟨25, _⟩ => ⟨S4096x32x128, .f32⟩
  | .hbm, ⟨26, _⟩ => ⟨S4096x32x128, .f32⟩
  | .hbm, ⟨27, _⟩ => ⟨S4096x32x128, .f32⟩
  | .hbm, ⟨28, _⟩ => ⟨S4096x32x128, .f32⟩
  | .hbm, ⟨29, _⟩ => ⟨S4096x4096, .f32⟩
  | .hbm, ⟨30, _⟩ => ⟨S4096x4096, .bf16⟩
  | .hbm, ⟨31, _⟩ => ⟨S11008x32x128, .f32⟩
  | .hbm, ⟨32, _⟩ => ⟨S11008x32x128, .f32⟩
  | .hbm, ⟨33, _⟩ => ⟨S_, .f32⟩
  | .hbm, ⟨34, _⟩ => ⟨S11008x32, .f32⟩
  | .hbm, ⟨35, _⟩ => ⟨S11008x32x1, .f32⟩
  | .hbm, ⟨36, _⟩ => ⟨S_, .f32⟩
  | .hbm, ⟨37, _⟩ => ⟨S11008x32x1, .f32⟩
  | .hbm, ⟨38, _⟩ => ⟨S11008x32x1, .f32⟩
  | .hbm, ⟨39, _⟩ => ⟨S_, .f32⟩
  | .hbm, ⟨40, _⟩ => ⟨S11008x32x1, .f32⟩
  | .hbm, ⟨41, _⟩ => ⟨S11008x32x1, .f32⟩
  | .hbm, ⟨42, _⟩ => ⟨S11008x32x128, .f32⟩
  | .hbm, ⟨43, _⟩ => ⟨S11008x32x128, .f32⟩
  | .hbm, ⟨44, _⟩ => ⟨S11008x32x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S11008x32x128, .f32⟩
  | .hbm, ⟨49, _⟩ => ⟨S11008x32x128, .f32⟩
  | .hbm, ⟨50, _⟩ => ⟨S_, .f32⟩
  | .hbm, ⟨51, _⟩ => ⟨S11008x32x128, .f32⟩
  | .hbm, ⟨52, _⟩ => ⟨S11008x32x128, .f32⟩
  | .hbm, ⟨53, _⟩ => ⟨S11008x32x128, .f32⟩
  | .hbm, ⟨54, _⟩ => ⟨S11008x32x128, .f32⟩
  | .hbm, ⟨55, _⟩ => ⟨S11008x4096, .f32⟩
  | .hbm, ⟨56, _⟩ => ⟨S11008x4096, .bf16⟩
  | .hbm, ⟨57, _⟩ => ⟨S11008x32x128, .f32⟩
  | .hbm, ⟨58, _⟩ => ⟨S11008x32x128, .f32⟩
  | .hbm, ⟨59, _⟩ => ⟨S_, .f32⟩
  | .hbm, ⟨60, _⟩ => ⟨S11008x32, .f32⟩
  | .hbm, ⟨61, _⟩ => ⟨S11008x32x1, .f32⟩
  | .hbm, ⟨62, _⟩ => ⟨S_, .f32⟩
  | .hbm, ⟨63, _⟩ => ⟨S11008x32x1, .f32⟩
  | .hbm, ⟨64, _⟩ => ⟨S11008x32x1, .f32⟩
  | .hbm, ⟨65, _⟩ => ⟨S_, .f32⟩
  | .hbm, ⟨66, _⟩ => ⟨S11008x32x1, .f32⟩
  | .hbm, ⟨67, _⟩ => ⟨S11008x32x1, .f32⟩
  | .hbm, ⟨68, _⟩ => ⟨S11008x32x128, .f32⟩
  | .hbm, ⟨69, _⟩ => ⟨S11008x32x128, .f32⟩
  | .hbm, ⟨70, _⟩ => ⟨S11008x32x128, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S11008x32x128, .f32⟩
  | .hbm, ⟨75, _⟩ => ⟨S11008x32x128, .f32⟩
  | .hbm, ⟨76, _⟩ => ⟨S_, .f32⟩
  | .hbm, ⟨77, _⟩ => ⟨S11008x32x128, .f32⟩
  | .hbm, ⟨78, _⟩ => ⟨S11008x32x128, .f32⟩
  | .hbm, ⟨79, _⟩ => ⟨S11008x32x128, .f32⟩
  | .hbm, ⟨80, _⟩ => ⟨S11008x32x128, .f32⟩
  | .hbm, ⟨81, _⟩ => ⟨S11008x4096, .f32⟩
  | .hbm, ⟨82, _⟩ => ⟨S11008x4096, .bf16⟩
  | .hbm, ⟨83, _⟩ => ⟨S4096x86x128, .f32⟩
  | .hbm, ⟨84, _⟩ => ⟨S4096x86x128, .f32⟩
  | .hbm, ⟨85, _⟩ => ⟨S_, .f32⟩
  | .hbm, ⟨86, _⟩ => ⟨S4096x86, .f32⟩
  | .hbm, ⟨87, _⟩ => ⟨S4096x86x1, .f32⟩
  | .hbm, ⟨88, _⟩ => ⟨S_, .f32⟩
  | .hbm, ⟨89, _⟩ => ⟨S4096x86x1, .f32⟩
  | .hbm, ⟨90, _⟩ => ⟨S4096x86x1, .f32⟩
  | .hbm, ⟨91, _⟩ => ⟨S_, .f32⟩
  | .hbm, ⟨92, _⟩ => ⟨S4096x86x1, .f32⟩
  | .hbm, ⟨93, _⟩ => ⟨S4096x86x1, .f32⟩
  | .hbm, ⟨94, _⟩ => ⟨S4096x86x128, .f32⟩
  | .hbm, ⟨95, _⟩ => ⟨S4096x86x128, .f32⟩
  | .hbm, ⟨96, _⟩ => ⟨S4096x86x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S4096x86x128, .f32⟩
  | .hbm, ⟨101, _⟩ => ⟨S4096x86x128, .f32⟩
  | .hbm, ⟨102, _⟩ => ⟨S_, .f32⟩
  | .hbm, ⟨103, _⟩ => ⟨S4096x86x128, .f32⟩
  | .hbm, ⟨104, _⟩ => ⟨S4096x86x128, .f32⟩
  | .hbm, ⟨105, _⟩ => ⟨S4096x86x128, .f32⟩
  | .hbm, ⟨106, _⟩ => ⟨S4096x86x128, .f32⟩
  | .hbm, ⟨107, _⟩ => ⟨S4096x11008, .f32⟩
  | .hbm, ⟨108, _⟩ => ⟨S4096x11008, .bf16⟩
  | .hbm, ⟨109, _⟩ => ⟨S4096x11008, .bf16⟩
  | .hbm, ⟨110, _⟩ => ⟨S4096x4096, .f32⟩
  | .hbm, ⟨111, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S4096x256, .bf16⟩
  | .local _ .vmem, ⟨11, _⟩ => ⟨S4096x256, .bf16⟩
  | .local _ .vmem, ⟨12, _⟩ => ⟨S512x4096, .f32⟩
  | .local _ .vmem, ⟨13, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_cst_13 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_cst_15 : Ref sig .tc := ⟨.hbm, 88, rfl⟩
abbrev main_v53 : Ref sig .tc := ⟨.hbm, 89, rfl⟩
abbrev main_v54 : Ref sig .tc := ⟨.hbm, 90, rfl⟩
abbrev main_cst_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_cst_18 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2x2048x4096_S4096x4096 : S2x2048x4096.ShapeCasts S4096x4096
  shapeCasts_S4096x4096_S4096x32x128 : S4096x4096.ShapeCasts S4096x32x128
  reducesTo_S4096x32x128_S4096x32_d2 : S4096x32x128.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  bitsLt_bf16_f32 : FTy.bits .bf16 < FTy.bits .f32
  shapeCasts_S11008x4096_S11008x32x128 : S11008x4096.ShapeCasts S11008x32x128
  reducesTo_S11008x32x128_S11008x32_d2 : S11008x32x128.ReducesTo [2] S11008x32
  bcast_S11008x32_S11008x32x1_0_1 : S11008x32.BroadcastsInDim S11008x32x1 (![0, 1] : Fin 2 → Fin S11008x32x1.rank)
  bcast_S_S11008x32x1 : S_.BroadcastsInDim S11008x32x1 (![] : Fin 0 → Fin S11008x32x1.rank)
  bcast_S11008x32x1_S11008x32x128_0_1_2 : S11008x32x1.BroadcastsInDim S11008x32x128 (![0, 1, 2] : Fin 3 → Fin S11008x32x128.rank)
  bcast_S_S11008x32x128 : S_.BroadcastsInDim S11008x32x128 (![] : Fin 0 → Fin S11008x32x128.rank)
  shapeCasts_S11008x32x128_S11008x4096 : S11008x32x128.ShapeCasts S11008x4096
  shapeCasts_S4096x11008_S4096x86x128 : S4096x11008.ShapeCasts S4096x86x128
  reducesTo_S4096x86x128_S4096x86_d2 : S4096x86x128.ReducesTo [2] S4096x86
  bcast_S4096x86_S4096x86x1_0_1 : S4096x86.BroadcastsInDim S4096x86x1 (![0, 1] : Fin 2 → Fin S4096x86x1.rank)
  bcast_S_S4096x86x1 : S_.BroadcastsInDim S4096x86x1 (![] : Fin 0 → Fin S4096x86x1.rank)
  bcast_S4096x86x1_S4096x86x128_0_1_2 : S4096x86x1.BroadcastsInDim S4096x86x128 (![0, 1, 2] : Fin 3 → Fin S4096x86x128.rank)
  bcast_S_S4096x86x128 : S_.BroadcastsInDim S4096x86x128 (![] : Fin 0 → Fin S4096x86x128.rank)
  shapeCasts_S4096x86x128_S4096x11008 : S4096x86x128.ShapeCasts S4096x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S512x256_S512x2x128 : S512x256.ShapeCasts S512x2x128
  reduces_S512x2x128_S512x2 : S512x2x128.Reduces [2] S512x2
  shapeCasts_S512x2_S512x2x1 : S512x2.ShapeCasts S512x2x1
  broadcasts_S512x2x1_S512x2x128 : S512x2x1.Broadcasts S512x2x128
  shapeCasts_S512x2x128_S512x256 : S512x2x128.ShapeCasts S512x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x11008.size a
  hwx0_3 : ∀ i : grid0.Coords, EltTy.bits .bf16 = 32 ∨ (Rect.block (s := S4096x11008) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x11008.size a
  hwx1_0 : ∀ i : grid1.Coords, EltTy.bits .bf16 = 32 ∨ (Rect.block (s := S4096x11008) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v16) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v65) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048x32x128 : Shape := ⟨4, ![2, 2048, 32, 128]⟩
abbrev S_ : Shape := ⟨0, ![]⟩
abbrev S2x2048x32 : Shape := ⟨3, ![2, 2048, 32]⟩
abbrev S2x2048x32x1 : Shape := ⟨4, ![2, 2048, 32, 1]⟩
abbrev S11008x32x128 : Shape := ⟨3, ![11008, 32, 128]⟩
abbrev S11008x32 : Shape := ⟨2, ![11008, 32]⟩
abbrev S11008x32x1 : Shape := ⟨3, ![11008, 32, 1]⟩
abbrev S2x2048x11008 : Shape := ⟨3, ![2, 2048, 11008]⟩
abbrev S2x2048x86x128 : Shape := ⟨4, ![2, 2048, 86, 128]⟩
abbrev S2x2048x86 : Shape := ⟨3, ![2, 2048, 86]⟩
abbrev S2x2048x86x1 : Shape := ⟨4, ![2, 2048, 86, 1]⟩
abbrev S4096x86x128 : Shape := ⟨3, ![4096, 86, 128]⟩
abbrev S4096x86 : Shape := ⟨2, ![4096, 86]⟩
abbrev S4096x86x1 : Shape := ⟨3, ![4096, 86, 1]⟩

abbrev nBuf : Space → Nat
  | .hbm => 142
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S2x2048x32x128, .f32⟩
  | 5 => ⟨S2x2048x32x128, .f32⟩
  | 6 => ⟨S_, .f32⟩
  | 7 => ⟨S2x2048x32, .f32⟩
  | 8 => ⟨S2x2048x32x1, .f32⟩
  | 9 => ⟨S_, .f32⟩
  | 10 => ⟨S2x2048x32x1, .f32⟩
  | 11 => ⟨S2x2048x32x1, .f32⟩
  | 12 => ⟨S_, .f32⟩
  | 13 => ⟨S2x2048x32x1, .f32⟩
  | 14 => ⟨S2x2048x32x1, .f32⟩
  | 15 => ⟨S2x2048x32x128, .f32⟩
  | 16 => ⟨S2x2048x32x128, .f32⟩
  | 17 => ⟨S2x2048x32x128, .f32⟩
  | 18 => ⟨S_, .f32⟩
  | 19 => ⟨S_, .f32⟩
  | 20 => ⟨S_, .f32⟩
  | 21 => ⟨S2x2048x32x128, .f32⟩
  | 22 => ⟨S2x2048x32x128, .f32⟩
  | 23 => ⟨S_, .f32⟩
  | 24 => ⟨S2x2048x32x128, .f32⟩
  | 25 => ⟨S2x2048x32x128, .f32⟩
  | 26 => ⟨S2x2048x32x128, .f32⟩
  | 27 => ⟨S2x2048x32x128, .f32⟩
  | 28 => ⟨S2x2048x4096, .f32⟩
  | 29 => ⟨S11008x32x128, .f32⟩
  | 30 => ⟨S11008x32x128, .f32⟩
  | 31 => ⟨S_, .f32⟩
  | 32 => ⟨S11008x32, .f32⟩
  | 33 => ⟨S11008x32x1, .f32⟩
  | 34 => ⟨S_, .f32⟩
  | 35 => ⟨S11008x32x1, .f32⟩
  | 36 => ⟨S11008x32x1, .f32⟩
  | 37 => ⟨S_, .f32⟩
  | 38 => ⟨S11008x32x1, .f32⟩
  | 39 => ⟨S11008x32x1, .f32⟩
  | 40 => ⟨S11008x32x128, .f32⟩
  | 41 => ⟨S11008x32x128, .f32⟩
  | 42 => ⟨S11008x32x128, .f32⟩
  | 43 => ⟨S_, .f32⟩
  | 44 => ⟨S_, .f32⟩
  | 45 => ⟨S_, .f32⟩
  | 46 => ⟨S11008x32x128, .f32⟩
  | 47 => ⟨S11008x32x128, .f32⟩
  | 48 => ⟨S_, .f32⟩
  | 49 => ⟨S11008x32x128, .f32⟩
  | 50 => ⟨S11008x32x128, .f32⟩
  | 51 => ⟨S11008x32x128, .f32⟩
  | 52 => ⟨S11008x32x128, .f32⟩
  | 53 => ⟨S11008x4096, .f32⟩
  | 54 => ⟨S2x2048x11008, .f32⟩
  | 55 => ⟨S11008x32x128, .f32⟩
  | 56 => ⟨S11008x32x128, .f32⟩
  | 57 => ⟨S_, .f32⟩
  | 58 => ⟨S11008x32, .f32⟩
  | 59 => ⟨S11008x32x1, .f32⟩
  | 60 => ⟨S_, .f32⟩
  | 61 => ⟨S11008x32x1, .f32⟩
  | 62 => ⟨S11008x32x1, .f32⟩
  | 63 => ⟨S_, .f32⟩
  | 64 => ⟨S11008x32x1, .f32⟩
  | 65 => ⟨S11008x32x1, .f32⟩
  | 66 => ⟨S11008x32x128, .f32⟩
  | 67 => ⟨S11008x32x128, .f32⟩
  | 68 => ⟨S11008x32x128, .f32⟩
  | 69 => ⟨S_, .f32⟩
  | 70 => ⟨S_, .f32⟩
  | 71 => ⟨S_, .f32⟩
  | 72 => ⟨S11008x32x128, .f32⟩
  | 73 => ⟨S11008x32x128, .f32⟩
  | 74 => ⟨S_, .f32⟩
  | 75 => ⟨S11008x32x128, .f32⟩
  | 76 => ⟨S11008x32x128, .f32⟩
  | 77 => ⟨S11008x32x128, .f32⟩
  | 78 => ⟨S11008x32x128, .f32⟩
  | 79 => ⟨S11008x4096, .f32⟩
  | 80 => ⟨S2x2048x11008, .f32⟩
  | 81 => ⟨S2x2048x11008, .f32⟩
  | 82 => ⟨S2x2048x11008, .f32⟩
  | 83 => ⟨S_, .f32⟩
  | 84 => ⟨S2x2048x11008, .f32⟩
  | 85 => ⟨S2x2048x11008, .f32⟩
  | 86 => ⟨S_, .f32⟩
  | 87 => ⟨S2x2048x11008, .f32⟩
  | 88 => ⟨S2x2048x11008, .f32⟩
  | 89 => ⟨S2x2048x11008, .f32⟩
  | 90 => ⟨S2x2048x11008, .f32⟩
  | 91 => ⟨S2x2048x86x128, .f32⟩
  | 92 => ⟨S2x2048x86x128, .f32⟩
  | 93 => ⟨S_, .f32⟩
  | 94 => ⟨S2x2048x86, .f32⟩
  | 95 => ⟨S2x2048x86x1, .f32⟩
  | 96 => ⟨S_, .f32⟩
  | 97 => ⟨S2x2048x86x1, .f32⟩
  | 98 => ⟨S2x2048x86x1, .f32⟩
  | 99 => ⟨S_, .f32⟩
  | 100 => ⟨S2x2048x86x1, .f32⟩
  | 101 => ⟨S2x2048x86x1, .f32⟩
  | 102 => ⟨S2x2048x86x128, .f32⟩
  | 103 => ⟨S2x2048x86x128, .f32⟩
  | 104 => ⟨S2x2048x86x128, .f32⟩
  | 105 => ⟨S_, .f32⟩
  | 106 => ⟨S_, .f32⟩
  | 107 => ⟨S_, .f32⟩
  | 108 => ⟨S2x2048x86x128, .f32⟩
  | 109 => ⟨S2x2048x86x128, .f32⟩
  | 110 => ⟨S_, .f32⟩
  | 111 => ⟨S2x2048x86x128, .f32⟩
  | 112 => ⟨S2x2048x86x128, .f32⟩
  | 113 => ⟨S2x2048x86x128, .f32⟩
  | 114 => ⟨S2x2048x86x128, .f32⟩
  | 115 => ⟨S2x2048x11008, .f32⟩
  | 116 => ⟨S4096x86x128, .f32⟩
  | 117 => ⟨S4096x86x128, .f32⟩
  | 118 => ⟨S_, .f32⟩
  | 119 => ⟨S4096x86, .f32⟩
  | 120 => ⟨S4096x86x1, .f32⟩
  | 121 => ⟨S_, .f32⟩
  | 122 => ⟨S4096x86x1, .f32⟩
  | 123 => ⟨S4096x86x1, .f32⟩
  | 124 => ⟨S_, .f32⟩
  | 125 => ⟨S4096x86x1, .f32⟩
  | 126 => ⟨S4096x86x1, .f32⟩
  | 127 => ⟨S4096x86x128, .f32⟩
  | _ => ⟨S2x2048x4096, .f32⟩

abbrev hbmTy0_1 (i : Nat) : BufTy := match i % 128 with
  | 0 => ⟨S4096x86x128, .f32⟩
  | 1 => ⟨S4096x86x128, .f32⟩
  | 2 => ⟨S_, .f32⟩
  | 3 => ⟨S_, .f32⟩
  | 4 => ⟨S_, .f32⟩
  | 5 => ⟨S4096x86x128, .f32⟩
  | 6 => ⟨S4096x86x128, .f32⟩
  | 7 => ⟨S_, .f32⟩
  | 8 => ⟨S4096x86x128, .f32⟩
  | 9 => ⟨S4096x86x128, .f32⟩
  | 10 => ⟨S4096x86x128, .f32⟩
  | 11 => ⟨S4096x86x128, .f32⟩
  | 12 => ⟨S4096x11008, .f32⟩
  | 13 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_cst_13 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call6_v0 : Ref sig .tc := ⟨.hbm, 81, rfl⟩
abbrev main_call6_v1 : Ref sig .tc := ⟨.hbm, 82, rfl⟩
abbrev main_call6_cst : Ref sig .tc := ⟨.hbm, 83, rfl⟩
abbrev main_call6_v2 : Ref sig .tc := ⟨.hbm, 84, rfl⟩
abbrev main_call6_v3 : Ref sig .tc := ⟨.hbm, 85, rfl⟩
abbrev main_call6_cst_0 : Ref sig .tc := ⟨.hbm, 86, rfl⟩
abbrev main_call6_v4 : Ref sig .tc := ⟨.hbm, 87, rfl⟩
abbrev main_call6_v5 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_14 : Ref sig .tc := ⟨.hbm, 93, rfl⟩
abbrev main_v51 : Ref sig .tc := ⟨.hbm, 94, rfl⟩
abbrev main_v52 : Ref sig .tc := ⟨.hbm, 95, rfl⟩
abbrev main_cst_15 : Ref sig .tc := ⟨.hbm, 96, rfl⟩
abbrev main_v53 : Ref sig .tc := ⟨.hbm, 97, rfl⟩
abbrev main_v54 : Ref sig .tc := ⟨.hbm, 98, rfl⟩
abbrev main_cst_16 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_17 : Ref sig .tc := ⟨.hbm, 105, rfl⟩
abbrev main_cst_18 : Ref sig .tc := ⟨.hbm, 106, rfl⟩
abbrev main_call8_v0 : Ref sig .tc := ⟨.hbm, 107, rfl⟩
abbrev main_call8_v1 : Ref sig .tc := ⟨.hbm, 108, rfl⟩
abbrev main_call8_v2 : Ref sig .tc := ⟨.hbm, 109, rfl⟩
abbrev main_call8_v3 : Ref sig .tc := ⟨.hbm, 110, rfl⟩
abbrev main_call8_v4 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_19 : Ref sig .tc := ⟨.hbm, 118, rfl⟩
abbrev main_v66 : Ref sig .tc := ⟨.hbm, 119, rfl⟩
abbrev main_v67 : Ref sig .tc := ⟨.hbm, 120, rfl⟩
abbrev main_cst_20 : Ref sig .tc := ⟨.hbm, 121, rfl⟩
abbrev main_v68 : Ref sig .tc := ⟨.hbm, 122, rfl⟩
abbrev main_v69 : Ref sig .tc := ⟨.hbm, 123, rfl⟩
abbrev main_cst_21 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_22 : Ref sig .tc := ⟨.hbm, 130, rfl⟩
abbrev main_cst_23 : Ref sig .tc := ⟨.hbm, 131, rfl⟩
abbrev main_call10_v0 : Ref sig .tc := ⟨.hbm, 132, rfl⟩
abbrev main_call10_v1 : Ref sig .tc := ⟨.hbm, 133, rfl⟩
abbrev main_call10_v2 : Ref sig .tc := ⟨.hbm, 134, rfl⟩
abbrev main_call10_v3 : Ref sig .tc := ⟨.hbm, 135, rfl⟩
abbrev main_call10_v4 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩

abbrev nD : Nat := 1
abbrev τ : Topo := Topo.v7x

variable {F : FTy → Type} [FloatOps F]

class Facts₀ : Prop where
  shapeCasts_S2x2048x4096_S2x2048x32x128 : S2x2048x4096.ShapeCasts S2x2048x32x128
  reducesTo_S2x2048x32x128_S2x2048x32_d3 : S2x2048x32x128.ReducesTo [3] S2x2048x32
  h_S_ : 0 < S_.numel
  bcast_S2x2048x32_S2x2048x32x1_0_1_2 : S2x2048x32.BroadcastsInDim S2x2048x32x1 (![0, 1, 2] : Fin 3 → Fin S2x2048x32x1.rank)
  bcast_S_S2x2048x32x1 : S_.BroadcastsInDim S2x2048x32x1 (![] : Fin 0 → Fin S2x2048x32x1.rank)
  bcast_S2x2048x32x1_S2x2048x32x128_0_1_2_3 : S2x2048x32x1.BroadcastsInDim S2x2048x32x128 (![0, 1, 2, 3] : Fin 4 → Fin S2x2048x32x128.rank)
  bcast_S_S2x2048x32x128 : S_.BroadcastsInDim S2x2048x32x128 (![] : Fin 0 → Fin S2x2048x32x128.rank)
  shapeCasts_S2x2048x32x128_S2x2048x4096 : S2x2048x32x128.ShapeCasts S2x2048x4096
  shapeCasts_S11008x4096_S11008x32x128 : S11008x4096.ShapeCasts S11008x32x128
  reducesTo_S11008x32x128_S11008x32_d2 : S11008x32x128.ReducesTo [2] S11008x32
  bcast_S11008x32_S11008x32x1_0_1 : S11008x32.BroadcastsInDim S11008x32x1 (![0, 1] : Fin 2 → Fin S11008x32x1.rank)
  bcast_S_S11008x32x1 : S_.BroadcastsInDim S11008x32x1 (![] : Fin 0 → Fin S11008x32x1.rank)
  bcast_S11008x32x1_S11008x32x128_0_1_2 : S11008x32x1.BroadcastsInDim S11008x32x128 (![0, 1, 2] : Fin 3 → Fin S11008x32x128.rank)
  bcast_S_S11008x32x128 : S_.BroadcastsInDim S11008x32x128 (![] : Fin 0 → Fin S11008x32x128.rank)
  shapeCasts_S11008x32x128_S11008x4096 : S11008x32x128.ShapeCasts S11008x4096
  bcast_S_S2x2048x11008 : S_.BroadcastsInDim S2x2048x11008 (![] : Fin 0 → Fin S2x2048x11008.rank)
  shapeCasts_S2x2048x11008_S2x2048x86x128 : S2x2048x11008.ShapeCasts S2x2048x86x128
  reducesTo_S2x2048x86x128_S2x2048x86_d3 : S2x2048x86x128.ReducesTo [3] S2x2048x86
  bcast_S2x2048x86_S2x2048x86x1_0_1_2 : S2x2048x86.BroadcastsInDim S2x2048x86x1 (![0, 1, 2] : Fin 3 → Fin S2x2048x86x1.rank)
  bcast_S_S2x2048x86x1 : S_.BroadcastsInDim S2x2048x86x1 (![] : Fin 0 → Fin S2x2048x86x1.rank)
  bcast_S2x2048x86x1_S2x2048x86x128_0_1_2_3 : S2x2048x86x1.BroadcastsInDim S2x2048x86x128 (![0, 1, 2, 3] : Fin 4 → Fin S2x2048x86x128.rank)
  bcast_S_S2x2048x86x128 : S_.BroadcastsInDim S2x2048x86x128 (![] : Fin 0 → Fin S2x2048x86x128.rank)
  shapeCasts_S2x2048x86x128_S2x2048x11008 : S2x2048x86x128.ShapeCasts S2x2048x11008
  shapeCasts_S4096x11008_S4096x86x128 : S4096x11008.ShapeCasts S4096x86x128
  reducesTo_S4096x86x128_S4096x86_d2 : S4096x86x128.ReducesTo [2] S4096x86
  bcast_S4096x86_S4096x86x1_0_1 : S4096x86.BroadcastsInDim S4096x86x1 (![0, 1] : Fin 2 → Fin S4096x86x1.rank)
  bcast_S_S4096x86x1 : S_.BroadcastsInDim S4096x86x1 (![] : Fin 0 → Fin S4096x86x1.rank)
  bcast_S4096x86x1_S4096x86x128_0_1_2 : S4096x86x1.BroadcastsInDim S4096x86x128 (![0, 1, 2] : Fin 3 → Fin S4096x86x128.rank)
  bcast_S_S4096x86x128 : S_.BroadcastsInDim S4096x86x128 (![] : Fin 0 → Fin S4096x86x128.rank)
  shapeCasts_S4096x86x128_S4096x11008 : S4096x86x128.ShapeCasts S4096x11008
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.KernelRun.lean ====
/-
  The kernel program's run with its RESULT named: every weakly fair execution of @main terminates, nothing faulting, the
  result buffer holding what the fold of @main's segments (host stretches and the two regions) leaves in it, and the four
  argument arrays as launched.  The statement adds the result buffer to the frame's post; the segments, the launch and the
  read-back of the final thread state are the frame's.
-/
import proofs.«118606_j55250459295887_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_mem : θ_run defs (onTc (τ := τ) (main (F := F))) ⟨m, fun _ => 0, ρ⟩ (fun r => ∀ c : Dev nD,
      r.2.mem ((c.tc : Thread nD τ).loc main_v67) = W20 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v67 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c)⟩)

end Cert.KernelIdeal.KRun

end
-- ==== Proof.Spec.lean ====
/-
  The quantized SwiGLU MLP as one function of its four argument arrays, over the extended reals.

  A GROUP is 128 consecutive entries of a row.  Fake-quantizing a group `g` (`qd`): its scale is
  `s = max (max_j |g j| / 127) eps`, and entry `k` becomes `clip (roundeven (g k / s)) (-127) 127 * s`.
  A row of length 4096 or 11008 is quantized group by group (`qrow4096`, `qrow11008`).

  For one row `xr` of the (already quantized) activations and the (already quantized) weight arrays
  `wg`, `wu` : [11008, 4096] and `wd` : [4096, 11008]:
    gate n = ∑ h, xr h * wg[n, h]        up n = ∑ h, xr h * wu[n, h]
    hidden n = (gate n * logistic (gate n)) * up n          (`hidRow`)
    hq = the row `hidden` quantized group by group          (`hqRow`)
    out h = ∑ n, hq n * wd[h, n]                            (`outRow`)
  Nothing here needs finiteness: every step is one function of extended reals, and the only algebra used
  later is that a finite sum may be split into consecutive blocks.
-/
import Idealize.ShloMosaic.PureOps.Ideal
import Idealize.ShloMosaic.Lib.ValueIdx

noncomputable section

open scoped BigOperators

namespace Cert.QuantMlp

open Idealize.ShloMosaic Idealize.ShloMosaic.ValueIdx

/-- The scale of a group: the largest magnitude over 127, but at least `eps`. The three float words
    (-inf, 127.0 and the f32 nearest 1e-8) are kept as words: both programs carry the same ones. -/
def scale (g : Fin 128 → EReal) : EReal :=
  max (Ideal.div ((Finset.univ : Finset (Fin 128)).fold max (Ideal.ofBits .f32 0xFF800000#32) fun j => max (g j) (-(g j)))
        (Ideal.ofBits .f32 0x42FE0000#32))
    (Ideal.ofBits .f32 0x322BCC77#32)

/-- One entry divided by the scale, rounded to the nearest integer (ties to even), clipped to [-127, 127],
    and multiplied back by the scale. -/
def requant (s v : EReal) : EReal :=
  min (Ideal.ofBits .f32 0x42FE0000#32)
      (max (Ideal.ofBits .f32 0xC2FE0000#32) (Ideal.liftRound Ideal.roundHalfEven (Ideal.div v s))) * s

/-- Entry `k` of the fake-quantized group `g`. -/
def qd (g : Fin 128 → EReal) (k : Fin 128) : EReal := requant (scale g) (g k)

/-- The column, in a row of length 4096, of lane `k` of the group that holds column `h`. -/
def lane4096 (h : Fin 4096) (k : Fin 128) : Fin 4096 :=
  ⟨h.val / 128 * 128 + k.val, by have := h.isLt; have := k.isLt; omega⟩
/-- The column, in a row of length 11008 = 86 · 128, of lane `k` of the group that holds column `n`. -/
def lane11008 (n : Fin 11008) (k : Fin 128) : Fin 11008 :=
  ⟨n.val / 128 * 128 + k.val, by have := n.isLt; have := k.isLt; omega⟩
/-- A column's lane inside its group. -/
def laneOf {N : Nat} (h : Fin N) : Fin 128 := ⟨h.val % 128, Nat.mod_lt _ (by norm_num)⟩

/-- A row of length 4096 quantized group by group. -/
def qrow4096 (x : Fin 4096 → EReal) (h : Fin 4096) : EReal := qd (fun k => x (lane4096 h k)) (laneOf h)
/-- A row of length 11008 quantized group by group. -/
def qrow11008 (x : Fin 11008 → EReal) (n : Fin 11008) : EReal := qd (fun k => x (lane11008 n k)) (laneOf n)

/-- The two weight shapes. -/
abbrev SW : Shape := ⟨2, ![11008, 4096]⟩
abbrev SD : Shape := ⟨2, ![4096, 11008]⟩

/-- One projection of a row: `∑ h, xr h * w[n, h]`. -/
def proj (xr : Fin 4096 → EReal) (w : SW.Idx → EReal) (n : Fin 11008) : EReal :=
  ∑ h : Fin 4096, xr h * w (ix2 n h)

/-- The hidden activation of a row: `(gate · logistic gate) · up`. -/
def hidRow (xr : Fin 4096 → EReal) (wg wu : SW.Idx → EReal) (n : Fin 11008) : EReal :=
  (proj xr wg n * Ideal.logistic (proj xr wg n)) * proj xr wu n

/-- The hidden activation of a row, quantized group by group. -/
def hqRow (xr : Fin 4096 → EReal) (wg wu : SW.Idx → EReal) : Fin 11008 → EReal :=
  qrow11008 (hidRow xr wg wu)

/-- The output row: the quantized hidden row against the down weights. -/
def outRow (xr : Fin 4096 → EReal) (wg wu : SW.Idx → EReal) (wd : SD.Idx → EReal) (h : Fin 4096) : EReal :=
  ∑ n : Fin 11008, hqRow xr wg wu n * wd (ix2 h n)

end Cert.QuantMlp

end
-- ==== Proof.TileQuant.lean ====
/-
  The first kernel's arithmetic on one [512, 256] tile of the hidden activation, read entry by entry.

  The tile `v` is viewed as [512, 2, 128]: two groups of 128 lanes per row.  The body takes each group's largest
  magnitude, divides by 127, bounds it below by eps (the group's scale), divides the group by its scale, rounds to the
  nearest integer, clips to [-127, 127] and multiplies back by the scale; then views the result as [512, 256] again.
  Entry (p, q) of the result is therefore `qd` of the group of row p that holds column q, at lane q mod 128.
-/
import proofs.«118606_j55250459295887_2_alg».proof.Proof.Gen.KernelIdeal.Skeleton
import proofs.«118606_j55250459295887_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Tile

open Cert.KernelIdeal Cert.KernelIdeal.Facts₀ Idealize.ShloMosaic Idealize.ShloMosaic.ValueIdx Cert.QuantMlp

/-- The [512, 256] tile viewed as [512, 2, 128]: entry (p, g, k) is column 128 g + k of row p. -/
theorem split_apply (v : FVec Ideal S512x256 .f32) (p : Fin 512) (g : Fin 2) (k : Fin 128) :
    shapeCast S512x2x128 v shapeCasts_S512x256_S512x2x128 (ix3 p g k)
      = v (ix2 p ⟨g.val * 128 + k.val, by have := g.isLt; have := k.isLt; omega⟩) :=
  shapeCast_apply v shapeCasts_S512x256_S512x2x128 (ix3 p g k) (ix2 p ⟨g.val * 128 + k.val, by have := g.isLt; have := k.isLt; omega⟩)
    (by rewrite [Shape.rowMajor_val_two, Shape.rowMajor_val_three]
        show p.val * 256 + (g.val * 128 + k.val) = (p.val * 2 + g.val) * 128 + k.val
        omega)

/-- The [512, 2, 128] view put back as [512, 256]: entry (p, q) is group q / 128, lane q mod 128 of row p. -/
theorem join_apply (v : FVec Ideal S512x2x128 .f32) (p : Fin 512) (q : Fin 256) :
    shapeCast S512x256 v shapeCasts_S512x2x128_S512x256 (ix2 p q)
      = v (ix3 p ⟨q.val / 128, by have := q.isLt; omega⟩ ⟨q.val % 128, Nat.mod_lt _ (by norm_num)⟩) :=
  shapeCast_apply v shapeCasts_S512x2x128_S512x256 (ix2 p q) (ix3 p ⟨q.val / 128, by have := q.isLt; omega⟩ ⟨q.val % 128, Nat.mod_lt _ (by norm_num)⟩)
    (by rewrite [Shape.rowMajor_val_two, Shape.rowMajor_val_three]
        show (p.val * 2 + q.val / 128) * 128 + q.val % 128 = p.val * 256 + q.val
        omega)

/-- The per-group maxima [512, 2] given a trailing unit axis. -/
theorem keep_apply (v : FVec Ideal S512x2 .f32) (p : Fin 512) (g : Fin 2) (z : Fin 1) :
    shapeCast S512x2x1 v shapeCasts_S512x2_S512x2x1 (ix3 p g z) = v (ix2 p g) :=
  shapeCast_apply v shapeCasts_S512x2_S512x2x1 (ix3 p g z) (ix2 p g)
    (by rewrite [Shape.rowMajor_val_two, Shape.rowMajor_val_three]
        show p.val * 2 + g.val = (p.val * 2 + g.val) * 1 + z.val
        have := z.isLt; omega)

/-- A per-group value [512, 2, 1] spread over the group's 128 lanes. -/
theorem spread_apply (v : FVec Ideal S512x2x1 .f32) (p : Fin 512) (g : Fin 2) (k : Fin 128) :
    broadcastTo S512x2x128 v broadcasts_S512x2x1_S512x2x128 (ix3 p g k) = v (ix3 p g (0 : Fin 1)) :=
  broadcastTo_apply v broadcasts_S512x2x1_S512x2x128 (ix3 p g k) (ix3 p g (0 : Fin 1))
    (fun a => by match a with | ⟨0, _⟩ => rfl | ⟨1, _⟩ => rfl | ⟨2, _⟩ => rfl)

/-- A group's largest value: the lane reduction at (p, g) folds `max` over the group's lanes from -inf. -/
theorem lanemax_apply (v : FVec Ideal S512x2x128 .f32) (p : Fin 512) (g : Fin 2) :
    multiReduction .maximumf [2] S512x2 v 0xFF800000#32 reduces_S512x2x128_S512x2 (.inl rfl) rfl (ix2 p g)
      = (Finset.univ : Finset (Fin 128)).fold max (Ideal.ofBits .f32 0xFF800000#32) (fun k => v (ix3 p g k)) := by
  refine (Ideal.multiReduction_maximumf_single v 0xFF800000#32 reduces_S512x2x128_S512x2 (.inl rfl) rfl (ix2 p g)).trans ?_
  have e : (v ∘ reduces_S512x2x128_S512x2.lift (ix2 p g)) = fun k : Fin 128 => v (ix3 p g k) :=
    funext fun k => congrArg v (funext fun a => Fin.ext (by match a with | ⟨0, _⟩ => rfl | ⟨1, _⟩ => rfl | ⟨2, _⟩ => rfl))
  show (Finset.univ : Finset (Fin 128)).fold max (Ideal.ofBits .f32 0xFF800000#32) (v ∘ reduces_S512x2x128_S512x2.lift (ix2 p g)) = _
  rw [e]
  rfl

/-- The body's arithmetic from the hidden tile on, as one function of the tile (the skeleton's lines from the
    view as [512, 2, 128] to the rounding to bf16, in its order). -/
def tileQ (v10 : FVec Ideal S512x256 .f32) : FVec Ideal S512x256 .bf16 :=
  have v11 : FVec Ideal S512x2x128 .f32 := shapeCast S512x2x128 v10 shapeCasts_S512x256_S512x2x128
  have v12 : FVec Ideal S512x2x128 .f32 := absf v11
  have v13 : FVec Ideal S512x2 .f32 := multiReduction .maximumf [2] S512x2 v12 0xFF800000#32 reduces_S512x2x128_S512x2 (.inl rfl) rfl
  have v14 : FVec Ideal S512x2x1 .f32 := shapeCast S512x2x1 v13 shapeCasts_S512x2_S512x2x1
  have cst_7 : Ideal .f32 := Scalar.ofBits .f32 0x42FE0000#32
  have v15 : FVec Ideal S512x2x1 .f32 := broadcast S512x2x1 cst_7
  have v16 : FVec Ideal S512x2x1 .f32 := divf v14 v15
  have cst_8 : Ideal .f32 := Scalar.ofBits .f32 0x322BCC77#32
  have v17 : FVec Ideal S512x2x1 .f32 := broadcast S512x2x1 cst_8
  have v18 : FVec Ideal S512x2x1 .f32 := maximumf v16 v17
  have v19 : FVec Ideal S512x2x128 .f32 := broadcastTo S512x2x128 v18 broadcasts_S512x2x1_S512x2x128
  have v20 : FVec Ideal S512x2x128 .f32 := divf v11 v19
  have v21 : FVec Ideal S512x2x128 .f32 := roundeven v20
  have cst_9 : Ideal .f32 := Scalar.ofBits .f32 0xC2FE0000#32
  have cst_10 : Ideal .f32 := Scalar.ofBits .f32 0x42FE0000#32
  have v22 : FVec Ideal S512x2x128 .f32 := broadcast S512x2x128 cst_9
  have v23 : FVec Ideal S512x2x128 .f32 := maximumf v22 v21
  have v24 : FVec Ideal S512x2x128 .f32 := broadcast S512x2x128 cst_10
  have v25 : FVec Ideal S512x2x128 .f32 := minimumf v24 v23
  have v26 : FVec Ideal S512x2x128 .f32 := broadcastTo S512x2x128 v18 broadcasts_S512x2x1_S512x2x128
  have v27 : FVec Ideal S512x2x128 .f32 := mulf v25 v26
  have v28 : FVec Ideal S512x256 .f32 := shapeCast S512x256 v27 shapeCasts_S512x2x128_S512x256
  truncf .bf16 v28 bitsLt_bf16_f32

/-- The group of row `p` of the tile that holds column `q`. -/
def grpOf (v : FVec Ideal S512x256 .f32) (p : Fin 512) (q : Fin 256) (k : Fin 128) : EReal :=
  v (ix2 p ⟨q.val / 128 * 128 + k.val, by have := q.isLt; have := k.isLt; omega⟩)

/-- Entry (p, q) of the quantized tile is `qd` of the group holding column q, at lane q mod 128. -/
theorem tileQ_apply (v : FVec Ideal S512x256 .f32) (p : Fin 512) (q : Fin 256) :
    tileQ v (ix2 p q) = qd (grpOf v p q) ⟨q.val % 128, Nat.mod_lt _ (by norm_num)⟩ := by
  have hg : ∀ k : Fin 128, shapeCast S512x2x128 v shapeCasts_S512x256_S512x2x128
      (ix3 p (⟨q.val / 128, by have := q.isLt; omega⟩ : Fin 2) k) = grpOf v p q k := fun k => split_apply v p _ k
  unfold tileQ
  refine (truncf_apply (φ := .f32) (ψ := .bf16) _ bitsLt_bf16_f32 (ix2 p q)).trans ?_
  rw [join_apply]
  show (min (Ideal.ofBits .f32 0x42FE0000#32) (max (Ideal.ofBits .f32 0xC2FE0000#32)
        (Ideal.liftRound Ideal.roundHalfEven (Ideal.div (shapeCast S512x2x128 v shapeCasts_S512x256_S512x2x128 (ix3 p _ _))
          (broadcastTo S512x2x128 _ broadcasts_S512x2x1_S512x2x128 (ix3 p _ _))))))
      * broadcastTo S512x2x128 _ broadcasts_S512x2x1_S512x2x128 (ix3 p _ _) = _
  rw [spread_apply, hg]
  show requant (max (Ideal.div (shapeCast S512x2x1 _ shapeCasts_S512x2_S512x2x1 (ix3 p _ (0 : Fin 1))) (Ideal.ofBits .f32 0x42FE0000#32))
      (Ideal.ofBits .f32 0x322BCC77#32)) _ = _
  rw [keep_apply, lanemax_apply]
  unfold qd scale
  refine congrArg (fun s => requant (max (Ideal.div ((Finset.univ : Finset (Fin 128)).fold max (Ideal.ofBits .f32 0xFF800000#32) s)
      (Ideal.ofBits .f32 0x42FE0000#32)) (Ideal.ofBits .f32 0x322BCC77#32)) _) ?_
  funext k
  show max (shapeCast S512x2x128 v shapeCasts_S512x256_S512x2x128 (ix3 p _ k)) (-(shapeCast S512x2x128 v shapeCasts_S512x256_S512x2x128 (ix3 p _ k))) = _
  rw [hg]

end Cert.KernelIdeal.Tile

end
-- ==== Proof.Matmuls.lean ====
/-
  The two kernels' matrix products into a zero accumulator, read entry by entry.  Both contract the TRAILING axis of both
  operands ("mh,nh->mn"): entry (p, q) is the sum over the shared axis of lhs[p, k] · rhs[q, k].
-/
import proofs.«118606_j55250459295887_2_alg».proof.Proof.Gen.KernelIdeal.Skeleton
import Idealize.ShloMosaic.PureOps.Ideal.Laws
import Idealize.ShloMosaic.Lib.ValueIdx

noncomputable section

open scoped BigOperators

namespace Cert.KernelIdeal.Tile

open Cert.KernelIdeal Cert.KernelIdeal.Facts₀ Idealize.ShloMosaic Idealize.ShloMosaic.ValueIdx

/-! The operand indices of the two products at an output index and a contraction index, coordinate by coordinate. -/

theorem proj_lhs0 (i : S512x256.Idx) (q : dot_S512x4096_S256x4096_S512x256_1_1_0_0_n_n.contr.Idx) : (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem proj_lhs1 (i : S512x256.Idx) (q : dot_S512x4096_S256x4096_S512x256_1_1_0_0_n_n.contr.Idx) : (dot_S512x4096_S256x4096_S512x256_1_1_0_0_n_n.lhsIdx i q 1).val = (q ⟨0, by decide⟩).val :=
  dot_S512x4096_S256x4096_S512x256_1_1_0_0_n_n.lhsIdx_val_of_single rfl i q
theorem proj_rhs0 (i : S512x256.Idx) (q : dot_S512x4096_S256x4096_S512x256_1_1_0_0_n_n.contr.Idx) : (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem proj_rhs1 (i : S512x256.Idx) (q : dot_S512x4096_S256x4096_S512x256_1_1_0_0_n_n.contr.Idx) : (dot_S512x4096_S256x4096_S512x256_1_1_0_0_n_n.rhsIdx i q 1).val = (q ⟨0, by decide⟩).val :=
  dot_S512x4096_S256x4096_S512x256_1_1_0_0_n_n.rhsIdx_val_of_single rfl i q

theorem down_lhs0 (i : S512x4096.Idx) (q : dot_S512x256_S4096x256_S512x4096_1_1_0_0_n_n.contr.Idx) : (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem down_lhs1 (i : S512x4096.Idx) (q : dot_S512x256_S4096x256_S512x4096_1_1_0_0_n_n.contr.Idx) : (dot_S512x256_S4096x256_S512x4096_1_1_0_0_n_n.lhsIdx i q 1).val = (q ⟨0, by decide⟩).val :=
  dot_S512x256_S4096x256_S512x4096_1_1_0_0_n_n.lhsIdx_val_of_single rfl i q
theorem down_rhs0 (i : S512x4096.Idx) (q : dot_S512x256_S4096x256_S512x4096_1_1_0_0_n_n.contr.Idx) : (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem down_rhs1 (i : S512x4096.Idx) (q : dot_S512x256_S4096x256_S512x4096_1_1_0_0_n_n.contr.Idx) : (dot_S512x256_S4096x256_S512x4096_1_1_0_0_n_n.rhsIdx i q 1).val = (q ⟨0, by decide⟩).val :=
  dot_S512x256_S4096x256_S512x4096_1_1_0_0_n_n.rhsIdx_val_of_single rfl i q

/-- The gate / up product of a [512, 4096] block of rows with a [256, 4096] block of weight rows. -/
theorem mm_proj (x : FVec Ideal S512x4096 .bf16) (w : FVec Ideal S256x4096 .bf16) (p : Fin 512) (q : Fin 256) :
    matmul dot_S512x4096_S256x4096_S512x256_1_1_0_0_n_n none x w (constant S512x256 .f32 0x00000000#32) (ix2 p q)
      = ∑ h : Fin 4096, x (ix2 p h) * w (ix2 q h) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun a => Fin.ext (by
    match a with
    | ⟨0, _⟩ => exact proj_lhs0 _ _
    | ⟨1, _⟩ => exact (proj_lhs1 _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun a => Fin.ext (by
    match a with
    | ⟨0, _⟩ => exact proj_rhs0 _ _
    | ⟨1, _⟩ => exact (proj_rhs1 _ _).trans hk)
  rw [el, er]

/-- The down product of a [512, 256] block of the quantized hidden rows with a [4096, 256] block of weight columns. -/
theorem mm_down (a : FVec Ideal S512x256 .bf16) (w : FVec Ideal S4096x256 .bf16) (p : Fin 512) (h : Fin 4096) :
    matmul dot_S512x256_S4096x256_S512x4096_1_1_0_0_n_n none a w (constant S512x4096 .f32 0x00000000#32) (ix2 p h)
      = ∑ k : Fin 256, a (ix2 p k) * w (ix2 h k) := by
  simp only [matmul]
  rw [Ideal.matmul_constant_zero_apply, ← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 p h) ((contrEquiv1 dot_S512x256_S4096x256_S512x4096_1_1_0_0_n_n 256 rfl rfl).symm k) = ix2 p k := funext fun a => Fin.ext (by
    match a with
    | ⟨0, _⟩ => exact down_lhs0 _ _
    | ⟨1, _⟩ => exact (down_lhs1 _ _).trans hk)
  have er : dot_S512x256_S4096x256_S512x4096_1_1_0_0_n_n.rhsIdx (ix2 p h) ((contrEquiv1 dot_S512x256_S4096x256_S512x4096_1_1_0_0_n_n 256 rfl rfl).symm k) = ix2 h k := funext fun a => Fin.ext (by
    match a with
    | ⟨0, _⟩ => exact down_rhs0 _ _
    | ⟨1, _⟩ => exact (down_rhs1 _ _).trans hk)
  rw [el, er]

end Cert.KernelIdeal.Tile

end
-- ==== Proof.TileEntry.lean ====
/-
  One grid point of the first kernel, entry by entry.

  At the point (mi, ni) the body loads rows [512 mi, 512 mi + 512) of the quantized activations X and rows
  [256 ni, 256 ni + 256) of the two quantized weight arrays, forms gate and up for those rows and columns, the hidden
  activation (gate · logistic gate) · up, and quantizes it group by group inside the tile.  256 is two whole groups and
  256 ni is a multiple of 128, so the tile's groups are the row's groups: entry (p, q) of what the body stores is entry
  (512 mi + p, 256 ni + q) of the row-wise quantized hidden activation `hqRow`.
-/
import proofs.«118606_j55250459295887_2_alg».proof.Proof.TileQuant
import proofs.«118606_j55250459295887_2_alg».proof.Proof.Matmuls

noncomputable section

open scoped BigOperators

namespace Cert.KernelIdeal.Tile

open Cert.KernelIdeal Cert.KernelIdeal.Facts₀ Idealize.ShloMosaic Idealize.ShloMosaic.ValueIdx Cert.QuantMlp

/-- The hidden tile (gate · logistic gate) · up of a block of rows and two blocks of weight rows. -/
def hidT (x0 : FVec Ideal S512x4096 .bf16) (x1 x2 : FVec Ideal S256x4096 .bf16) : FVec Ideal S512x256 .f32 :=
  mulf (mulf (matmul dot_S512x4096_S256x4096_S512x256_1_1_0_0_n_n none x0 x1 (constant S512x256 .f32 0x00000000#32))
        (logistic (matmul dot_S512x4096_S256x4096_S512x256_1_1_0_0_n_n none x0 x1 (constant S512x256 .f32 0x00000000#32))))
    (matmul dot_S512x4096_S256x4096_S512x256_1_1_0_0_n_n none x0 x2 (constant S512x256 .f32 0x00000000#32))

theorem hidT_apply (x0 : FVec Ideal S512x4096 .bf16) (x1 x2 : FVec Ideal S256x4096 .bf16) (p : Fin 512) (q : Fin 256) :
    hidT x0 x1 x2 (ix2 p q)
      = ((∑ h : Fin 4096, x0 (ix2 p h) * x1 (ix2 q h)) * Ideal.logistic (∑ h : Fin 4096, x0 (ix2 p h) * x1 (ix2 q h)))
          * (∑ h : Fin 4096, x0 (ix2 p h) * x2 (ix2 q h)) := by
  unfold hidT
  show (matmul dot_S512x4096_S256x4096_S512x256_1_1_0_0_n_n none x0 x1 (constant S512x256 .f32 0x00000000#32) (ix2 p q)
        * Ideal.logistic (matmul dot_S512x4096_S256x4096_S512x256_1_1_0_0_n_n none x0 x1 (constant S512x256 .f32 0x00000000#32) (ix2 p q)))
      * matmul dot_S512x4096_S256x4096_S512x256_1_1_0_0_n_n none x0 x2 (constant S512x256 .f32 0x00000000#32) (ix2 p q) = _
  rw [mm_proj, mm_proj]

/-- What the body stores is the tile quantization of the hidden tile of the three loaded blocks. -/
theorem pay_eq (x0 : Vec Ideal S512x4096 .bf16) (x1 x2 : Vec Ideal S256x4096 .bf16) :
    Gen.k0_pay1 x0 x1 x2 = tileQ (hidT x0 x1 x2) := by
  have e : Gen.k0_pay1 x0 x1 x2
      = tileQ (hidT (shapeCast S512x4096 x0 shapeCasts_S512x4096_S512x4096) (shapeCast S256x4096 x1 shapeCasts_S256x4096_S256x4096)
          (shapeCast S256x4096 x2 shapeCasts_S256x4096_S256x4096)) := rfl
  rw [e, shapeCast_self, shapeCast_self, shapeCast_self]

/-- Entry (p, q) of the stored tile at the point (mi, ni) is entry (512 mi + p, 256 ni + q) of the quantized hidden rows. -/
theorem tile_entry (x0 : Vec Ideal S512x4096 .bf16) (x1 x2 : Vec Ideal S256x4096 .bf16)
    (X : S4096x4096.Idx → EReal) (Wg Wu : S11008x4096.Idx → EReal) (mi ni : ℕ) (hmi : mi < 8) (hni : ni < 43)
    (h0 : ∀ (p : Fin 512) (h : Fin 4096), x0 (ix2 p h) = X (ix2 (⟨mi * 512 + p.val, by have := p.isLt; omega⟩ : Fin 4096) h))
    (h1 : ∀ (q : Fin 256) (h : Fin 4096), x1 (ix2 q h) = Wg (ix2 (⟨ni * 256 + q.val, by have := q.isLt; omega⟩ : Fin 11008) h))
    (h2 : ∀ (q : Fin 256) (h : Fin 4096), x2 (ix2 q h) = Wu (ix2 (⟨ni * 256 + q.val, by have := q.isLt; omega⟩ : Fin 11008) h))
    (p : Fin 512) (q : Fin 256) :
    Gen.k0_pay1 x0 x1 x2 (ix2 p q)
      = hqRow (fun h => X (ix2 (⟨mi * 512 + p.val, by have := p.isLt; omega⟩ : Fin 4096) h)) Wg Wu
          (⟨ni * 256 + q.val, by have := q.isLt; omega⟩ : Fin 11008) := by
  rw [pay_eq, tileQ_apply]
  unfold hqRow qrow11008
  have hl : laneOf (⟨ni * 256 + q.val, by have := q.isLt; omega⟩ : Fin 11008) = (⟨q.val % 128, Nat.mod_lt _ (by norm_num)⟩ : Fin 128) :=
    Fin.ext (by show (ni * 256 + q.val) % 128 = q.val % 128; omega)
  rw [hl]
  refine congrArg (fun g => qd g (⟨q.val % 128, Nat.mod_lt _ (by norm_num)⟩ : Fin 128)) (funext fun k => ?_)
  unfold grpOf
  rw [hidT_apply]
  unfold hidRow proj
  have hn : lane11008 (⟨ni * 256 + q.val, by have := q.isLt; omega⟩ : Fin 11008) k
      = (⟨ni * 256 + (q.val / 128 * 128 + k.val), by have := q.isLt; have := k.isLt; omega⟩ : Fin 11008) :=
    Fin.ext (by show (ni * 256 + q.val) / 128 * 128 + k.val = ni * 256 + (q.val / 128 * 128 + k.val); omega)
  rw [hn]
  simp only [h0, h1, h2]

end Cert.KernelIdeal.Tile

end
-- ==== Proof.Region0.lean ====
/-
  The first pallas_call as a whole: what its output array [4096, 11008] holds when the region is left.

  The grid is 8 × 43, the second axis the faster: point t is (t / 43, t mod 43).  It reads block t / 43 of the
  activations' rows, block t mod 43 of the two weight arrays' rows, and writes block (t / 43, t mod 43) of the output;
  every point writes its block back and the blocks tile the output.  By the entry-by-entry reading of one point, the output
  ends as `HQ`: row r is the row-wise quantized hidden activation of row r of the activations.
-/
import proofs.«118606_j55250459295887_2_alg».proof.Proof.Gen.KernelIdeal.Frame
import proofs.«118606_j55250459295887_2_alg».proof.Proof.TileEntry
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.QuantMlp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The quantized hidden activation [4096, 11008] as a function of the three arrays the region reads. -/
def HQ (X : S4096x4096.Idx → EReal) (Wg Wu : S11008x4096.Idx → EReal) : S4096x11008.Idx → EReal :=
  fun i => hqRow (fun h => X (ix2 (i 0) h)) Wg Wu (i 1)

/-- The printed index maps over the grid: which block of each array point t touches. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val / 43 ∧ win0_3.index t (1 : Fin 2) = t.val % 43 :=
  (by decide +kernel : ∀ t : Fin grid0.N, _)

theorem lt_N (t : Fin cfg0.N) : t.val < 344 := lt_of_lt_of_eq t.isLt (show cfg0.N = 344 from N_0)

/-- The activations' block at point t: rows 512 (t / 43) + p. -/
theorem blk0 (c : Dev nD) (t : Fin cfg0.N) (p : Fin 512) (h : Fin 4096) :
    (iblk0 V c 0 t : Vec Ideal S512x4096 .bf16) (ix2 p h)
      = (V c main_v16 : S4096x4096.Idx → EReal) (ix2 (⟨t.val / 43 * 512 + p.val, by have := lt_N t; have := p.isLt; omega⟩ : Fin 4096) h) := by
  obtain ⟨e0, e1, -⟩ := idx_facts t
  unfold iblk0
  rw [View.read_apply]
  show V c main_v16 (((cfg0.win 0).blk t).view.emb (ix2 p h)) = V c main_v16 _
  refine congrArg _ (funext fun a => Fin.ext ?_)
  match a with
  | ⟨0, _⟩ => show win0_0.index t (0 : Fin 2) * 512 + 1 * p.val = t.val / 43 * 512 + p.val; rw [e0]; omega
  | ⟨1, _⟩ => show win0_0.index t (1 : Fin 2) * 4096 + 1 * h.val = h.val; rw [e1]; omega

/-- The gate weights' block at point t: rows 256 (t mod 43) + q. -/
theorem blk1 (c : Dev nD) (t : Fin cfg0.N) (q : Fin 256) (h : Fin 4096) :
    (iblk0 V c 1 t : Vec Ideal S256x4096 .bf16) (ix2 q h)
      = (V c main_v32 : S11008x4096.Idx → EReal) (ix2 (⟨t.val % 43 * 256 + q.val, by have := q.isLt; omega⟩ : Fin 11008) h) := by
  obtain ⟨-, -, e0, e1, -⟩ := idx_facts t
  unfold iblk0
  rw [View.read_apply]
  show V c main_v32 (((cfg0.win 1).blk t).view.emb (ix2 q h)) = V c main_v32 _
  refine congrArg _ (funext fun a => Fin.ext ?_)
  match a with
  | ⟨0, _⟩ => show win0_1.index t (0 : Fin 2) * 256 + 1 * q.val = t.val % 43 * 256 + q.val; rw [e0]; omega
  | ⟨1, _⟩ => show win0_1.index t (1 : Fin 2) * 4096 + 1 * h.val = h.val; rw [e1]; omega

/-- The up weights' block at point t: rows 256 (t mod 43) + q. -/
theorem blk2 (c : Dev nD) (t : Fin cfg0.N) (q : Fin 256) (h : Fin 4096) :
    (iblk0 V c 2 t : Vec Ideal S256x4096 .bf16) (ix2 q h)
      = (V c main_v48 : S11008x4096.Idx → EReal) (ix2 (⟨t.val % 43 * 256 + q.val, by have := q.isLt; omega⟩ : Fin 11008) h) := by
  obtain ⟨-, -, -, -, e0, e1, -⟩ := idx_facts t
  unfold iblk0
  rw [View.read_apply]
  show V c main_v48 (((cfg0.win 2).blk t).view.emb (ix2 q h)) = V c main_v48 _
  refine congrArg _ (funext fun a => Fin.ext ?_)
  match a with
  | ⟨0, _⟩ => show win0_2.index t (0 : Fin 2) * 256 + 1 * q.val = t.val % 43 * 256 + q.val; rw [e0]; omega
  | ⟨1, _⟩ => show win0_2.index t (1 : Fin 2) * 4096 + 1 * h.val = h.val; rw [e1]; omega

/-- What point t stores, at an entry of its tile, is `HQ` at that entry's place in the output array. -/
theorem point_eq (c : Dev nD) (t : Fin cfg0.N) (j : S512x256.Idx) :
    k0_pay1 (iblk0 V c 0 t) (iblk0 V c 1 t) (iblk0 V c 2 t) j
      = HQ (V c main_v16) (V c main_v32) (V c main_v48) (((cfg0.win 3).blk t).view.emb j) := by
  obtain ⟨p, q, rfl⟩ : ∃ (p : Fin 512) (q : Fin 256), j = ix2 p q := ⟨j 0, j 1, eq_ix2 j⟩
  obtain ⟨-, -, -, -, -, -, e6, e7⟩ := idx_facts t
  have hN := lt_N t
  refine (Tile.tile_entry (iblk0 V c 0 t) (iblk0 V c 1 t) (iblk0 V c 2 t) (V c main_v16) (V c main_v32) (V c main_v48)
    (t.val / 43) (t.val % 43) (by omega) (Nat.mod_lt _ (by norm_num)) (blk0 V c t) (blk1 V c t) (blk2 V c t) p q).trans ?_
  have ha : ((cfg0.win 3).blk t).view.emb (ix2 p q)
      = ix2 (⟨t.val / 43 * 512 + p.val, by have := p.isLt; omega⟩ : Fin 4096) (⟨t.val % 43 * 256 + q.val, by have := q.isLt; omega⟩ : Fin 11008) :=
    funext fun a => Fin.ext (by
      match a with
      | ⟨0, _⟩ => show win0_3.index t (0 : Fin 2) * 512 + 1 * p.val = t.val / 43 * 512 + p.val; rw [e6]; omega
      | ⟨1, _⟩ => show win0_3.index t (1 : Fin 2) * 256 + 1 * q.val = t.val % 43 * 256 + q.val; rw [e7]; omega)
  rw [ha]
  rfl

/-- What point t writes back is block t of `HQ`. -/
theorem flushed_eq (c : Dev nD) (t : Fin cfg0.N) :
    (dat0 V c).flushed 3 t
      = ((cfg0.win 3).blk t).view.read (Elt Ideal) (HQ (V c main_v16) (V c main_v32) (V c main_v48)) := by
  show (cfg0.win 3).cut (grid0.coords t) ((dat0 V c).after 3 t) = _
  rw [after0_3]
  unfold out0_3
  rw [View.canon_unit_zero hz]
  simp only [View.ld_unit_zero (S := S512x4096) hz, View.ld_unit_zero (S := S256x4096) hz]
  funext j
  exact point_eq V c t j

/-- An index of the output array is in point t's block iff each coordinate is in the block's range. -/
theorem mem_blk (t : Fin cfg0.N) (i : S4096x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v65).slice (win0_3.rect t)).set ↔ _
  rw [View.set_slice_whole, Rect.mem_set_unit]
  exact Iff.rfl

/-- The output array after the region: `HQ` of the three arrays the region read. -/
theorem final (c : Dev nD) :
    (dat0 V c).arrAt 3 cfg0.N = HQ (V c main_v16) (V c main_v32) (V c main_v48) :=
  (dat0 V c).arrAt_eq_of_cover 3 _ (fun t _ => flushed_eq V c t) fun i => by
    have h0 : (i 0).val < 4096 := (i 0).isLt
    have h1 : (i 1).val < 11008 := (i 1).isLt
    have hlt : (i 0).val / 512 * 43 + (i 1).val / 256 < cfg0.N := by rw [show cfg0.N = 344 from N_0]; omega
    obtain ⟨-, -, -, -, -, -, e6, e7⟩ := idx_facts ⟨(i 0).val / 512 * 43 + (i 1).val / 256, hlt⟩
    refine ⟨⟨(i 0).val / 512 * 43 + (i 1).val / 256, hlt⟩, flush0_3 _, ?_⟩
    rw [mem_blk]
    intro a
    match a with
    | ⟨0, _⟩ =>
      show win0_3.index ⟨(i 0).val / 512 * 43 + (i 1).val / 256, hlt⟩ (0 : Fin 2) * 512 ≤ (i 0).val
        ∧ (i 0).val < win0_3.index ⟨(i 0).val / 512 * 43 + (i 1).val / 256, hlt⟩ (0 : Fin 2) * 512 + 512
      rw [e6]; dsimp only; omega
    | ⟨1, _⟩ =>
      show win0_3.index ⟨(i 0).val / 512 * 43 + (i 1).val / 256, hlt⟩ (1 : Fin 2) * 256 ≤ (i 1).val
        ∧ (i 1).val < win0_3.index ⟨(i 0).val / 512 * 43 + (i 1).val / 256, hlt⟩ (1 : Fin 2) * 256 + 256
      rw [e7]; dsimp only; omega

end Cert.KernelIdeal.Region0

end
-- ==== Proof.DownEntry.lean ====
/-
  One grid point of the second kernel, entry by entry: the body adds to the accumulator block the product of a
  [512, 256] block of the quantized hidden rows with a [4096, 256] block of the down weights' columns; at the first point
  of a row of the grid the accumulator is first set to zero.
-/
import proofs.«118606_j55250459295887_2_alg».proof.Proof.Matmuls
import Idealize.ShloMosaic.Lib.Pipeline.Value

noncomputable section

open scoped BigOperators

namespace Cert.KernelIdeal.Tile

open Cert.KernelIdeal Cert.KernelIdeal.Facts₀ Idealize.ShloMosaic Idealize.ShloMosaic.ValueIdx

/-- The accumulating store's value: the accumulator plus the block product. -/
theorem acc_entry (a : Vec Ideal S512x256 .bf16) (w : Vec Ideal S4096x256 .bf16) (acc : Vec Ideal S512x4096 .f32)
    (p : Fin 512) (h : Fin 4096) :
    Gen.k1_pay2 a w acc (ix2 p h) = acc (ix2 p h) + ∑ k : Fin 256, a (ix2 p k) * w (ix2 h k) := by
  have e : Gen.k1_pay2 a w acc
      = addf (shapeCast S512x4096 acc shapeCasts_S512x4096_S512x4096)
          (matmul dot_S512x256_S4096x256_S512x4096_1_1_0_0_n_n none (shapeCast S512x256 a shapeCasts_S512x256_S512x256)
            (shapeCast S4096x256 w shapeCasts_S4096x256_S4096x256) (constant S512x4096 .f32 0x00000000#32)) := rfl
  rw [e, shapeCast_self, shapeCast_self, shapeCast_self]
  exact congrArg (fun z : EReal => (acc (ix2 p h) : EReal) + z) (mm_down a w p h)

/-- The reset store's value: zero everywhere. -/
theorem zero_entry (i : S512x4096.Idx) : (Gen.k1_pay1 (F := Ideal)) i = 0 := by
  show Ideal.ofBits .f32 0x00000000#32 = 0
  exact Ideal.ofBits_zero_f32

end Cert.KernelIdeal.Tile

end
-- ==== Proof.BlockSum.lean ====
/-
  A sum over a row of length 11008 = 43 · 256, taken 256 columns at a time.

  `psum f i` is the sum of the first `256 i` entries.  It starts at zero, grows by one block of 256 entries per step, and after
  43 steps it is the whole sum.  Only commutativity and associativity of addition are used, so the values may be extended
  reals.
-/
import Mathlib.Algebra.BigOperators.Fin
import Mathlib.Algebra.BigOperators.Intervals

open scoped BigOperators

namespace Cert.QuantMlp

variable {M : Type*} [AddCommMonoid M]

/-- A function on the first 11008 naturals extended by zero. -/
def ext0 (f : Fin 11008 → M) (j : ℕ) : M := if h : j < 11008 then f ⟨j, h⟩ else 0

/-- The sum of the first `256 i` entries. -/
def psum (f : Fin 11008 → M) (i : ℕ) : M := ∑ j ∈ Finset.range (i * 256), ext0 f j

theorem psum_zero (f : Fin 11008 → M) : psum f 0 = 0 := by
  simp [psum]

/-- One more block of 256 entries. -/
theorem psum_succ (f : Fin 11008 → M) (i : ℕ) (hi : i < 43) :
    psum f (i + 1) = psum f i + ∑ k : Fin 256, f ⟨i * 256 + k.val, by have := k.isLt; omega⟩ := by
  unfold psum
  rw [show (i + 1) * 256 = i * 256 + 256 by omega, Finset.sum_range_add, Finset.sum_range (fun x => ext0 f (i * 256 + x))]
  refine congrArg (fun z => (∑ j ∈ Finset.range (i * 256), ext0 f j) + z) (Finset.sum_congr rfl fun k _ => ?_)
  unfold ext0
  rw [dif_pos (by have := k.isLt; omega)]

/-- After 43 blocks: the whole sum. -/
theorem psum_full (f : Fin 11008 → M) : psum f 43 = ∑ n : Fin 11008, f n := by
  unfold psum
  rw [show 43 * 256 = 11008 by omega, Finset.sum_range (fun x => ext0 f x)]
  refine Finset.sum_congr rfl fun k _ => ?_
  unfold ext0
  rw [dif_pos k.isLt]

end Cert.QuantMlp
-- ==== Proof.DownStep.lean ====
/-
  The second kernel's accumulator, one point at a time.  Along a row of the grid the accumulator block of rows
  [512 mi, 512 mi + 512) holds, after the point with column block ii, the partial sums over the first 256 (ii + 1) columns
  of the products A[r, n] · B[h, n]: the point adds block ii's 256 products to what the points before left.
-/
import proofs.«118606_j55250459295887_2_alg».proof.Proof.DownEntry
import proofs.«118606_j55250459295887_2_alg».proof.Proof.BlockSum

noncomputable section

open scoped BigOperators

namespace Cert.KernelIdeal.Tile

open Cert.KernelIdeal Idealize.ShloMosaic Idealize.ShloMosaic.ValueIdx Cert.QuantMlp

/-- The products summed into output entry (r, h): over the 11008 hidden columns n, A[r, n] · B[h, n]. -/
def rowf (A B : S4096x11008.Idx → EReal) (r h : Fin 4096) (n : Fin 11008) : EReal := A (ix2 r n) * B (ix2 h n)

/-- One point: from the partial sums over `ii` blocks to those over `ii + 1` blocks. -/
theorem step (x0 : Vec Ideal S512x256 .bf16) (x1 : Vec Ideal S4096x256 .bf16) (acc : Vec Ideal S512x4096 .f32)
    (A B : S4096x11008.Idx → EReal) (mi ii : ℕ) (hmi : mi < 8) (hii : ii < 43)
    (hx0 : ∀ (p : Fin 512) (k : Fin 256), x0 (ix2 p k)
      = A (ix2 (⟨mi * 512 + p.val, by have := p.isLt; omega⟩ : Fin 4096) (⟨ii * 256 + k.val, by have := k.isLt; omega⟩ : Fin 11008)))
    (hx1 : ∀ (h : Fin 4096) (k : Fin 256), x1 (ix2 h k) = B (ix2 h (⟨ii * 256 + k.val, by have := k.isLt; omega⟩ : Fin 11008)))
    (p : Fin 512) (h : Fin 4096)
    (hacc : acc (ix2 p h) = psum (rowf A B (⟨mi * 512 + p.val, by have := p.isLt; omega⟩ : Fin 4096) h) ii) :
    Gen.k1_pay2 x0 x1 acc (ix2 p h) = psum (rowf A B (⟨mi * 512 + p.val, by have := p.isLt; omega⟩ : Fin 4096) h) (ii + 1) := by
  rw [acc_entry, hacc, psum_succ _ ii hii]
  refine congrArg (fun z => psum (rowf A B (⟨mi * 512 + p.val, by have := p.isLt; omega⟩ : Fin 4096) h) ii + z)
    (Finset.sum_congr rfl fun k _ => ?_)
  unfold rowf
  rw [hx0, hx1]

end Cert.KernelIdeal.Tile

end
-- ==== Proof.Region1.lean ====
/-
  The second pallas_call as a whole: what its output array [4096, 4096] holds when the region is left.

  The grid is 8 × 43, the second axis the faster: point t is (t / 43, t mod 43).  It reads block (t / 43, t mod 43) of the
  quantized hidden activation A and column block t mod 43 of the down weights B, and accumulates into the output block of
  rows [512 (t / 43), +512), which stays in place along a row of the grid: it is set to zero at t mod 43 = 0 and written
  back at t mod 43 = 42.  After point t the block holds the partial sums over the first 256 (t mod 43 + 1) hidden columns
  (induction on the point), so what is written back is the whole sum over the 11008 columns.
-/
import proofs.«118606_j55250459295887_2_alg».proof.Proof.Gen.KernelIdeal.Frame
import proofs.«118606_j55250459295887_2_alg».proof.Proof.DownStep
import Idealize.ShloMosaic.Lib.Pipeline.Value
import Idealize.ShloMosaic.Lib.Tactic

set_option maxRecDepth 16384

noncomputable section

open scoped BigOperators

namespace Cert.KernelIdeal.Region1

open Cert.KernelIdeal Cert.KernelIdeal.Gen Idealize.ShloMosaic Idealize.ShloMosaic.TcCoe Idealize.ShloMosaic.Tactic Idealize.SL.Sem
open Idealize.ShloMosaic.ValueIdx Cert.QuantMlp Cert.KernelIdeal.Tile
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output [4096, 4096] as a function of the two arrays the region reads: entry (r, h) = ∑ n, A[r, n] · B[h, n]. -/
def OUT (A B : S4096x11008.Idx → EReal) : S4096x4096.Idx → EReal :=
  fun i => ∑ n : Fin 11008, A (ix2 (i 0) n) * B (ix2 (i 1) n)

/-- A point that does not reset: the body leaves the accumulating store's value over the running contents. -/
theorem out_B (c : Dev nD) (i : grid1.Coords) (a2 : Memref sig .tc .vmem S512x256 .bf16) (h2 : a2.IsWhole)
    (a3 : Memref sig .tc .vmem S4096x256 .bf16) (h3 : a3.IsWhole) (a4 : Memref sig .tc .vmem S512x4096 .f32) (h4 : a4.IsWhole)
    (hc : ¬cond1_0 i) (x0 : Vec Ideal S512x256 .bf16) (x1 : Vec Ideal S4096x256 .bf16) (xo : Vec Ideal S512x4096 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S512x256) hz,
    View.ld_unit_zero (S := S4096x256) hz, View.ld_unit_zero (S := S512x4096) hz]

/-- A point that resets: the body stores zero, reads it back, and leaves the accumulating store's value over zero. -/
theorem out_A (c : Dev nD) (i : grid1.Coords) (a2 : Memref sig .tc .vmem S512x256 .bf16) (h2 : a2.IsWhole)
    (a3 : Memref sig .tc .vmem S4096x256 .bf16) (h3 : a3.IsWhole) (a4 : Memref sig .tc .vmem S512x4096 .f32) (h4 : a4.IsWhole)
    (hc : cond1_0 i) (x0 : Vec Ideal S512x256 .bf16) (x1 : Vec Ideal S4096x256 .bf16) :
    out1_A_2 c i a2 h2 a3 h3 a4 h4 hc x0 x1 = k1_pay2 x0 x1 (k1_pay1 (F := Ideal)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S512x4096) hz, View.readCov_unit_zero (S := S512x4096) _ hz]
  simp only [View.readAt_eq_ld, h2.read_unread, h3.read_unread, View.ld_unit_zero (S := S512x256) hz,
    View.ld_unit_zero (S := S4096x256) hz, View.ld_unit_zero (S := S512x4096) hz]

/-- The printed index maps over the grid. -/
theorem idx_facts : ∀ t : Fin cfg1.N,
    win1_0.index t (0 : Fin 2) = t.val / 43 ∧ win1_0.index t (1 : Fin 2) = t.val % 43
    ∧ win1_1.index t (0 : Fin 2) = 0 ∧ win1_1.index t (1 : Fin 2) = t.val % 43
    ∧ win1_2.index t (0 : Fin 2) = t.val / 43 ∧ win1_2.index t (1 : Fin 2) = 0 :=
  (by decide +kernel : ∀ t : Fin grid1.N, _)

theorem lt_N (t : Fin cfg1.N) : t.val < 344 := lt_of_lt_of_eq t.isLt (show cfg1.N = 344 from N_1)

/-- The hidden activation's block at point t. -/
theorem blkA (c : Dev nD) (t : Fin cfg1.N) (p : Fin 512) (k : Fin 256) :
    (iblk1 V c 0 t : Vec Ideal S512x256 .bf16) (ix2 p k)
      = (V c main_v65 : S4096x11008.Idx → EReal) (ix2 (⟨t.val / 43 * 512 + p.val, by have := lt_N t; have := p.isLt; omega⟩ : Fin 4096)
          (⟨t.val % 43 * 256 + k.val, by have := k.isLt; omega⟩ : Fin 11008)) := by
  obtain ⟨e0, e1, -⟩ := idx_facts t
  unfold iblk1
  rw [View.read_apply]
  show V c main_v65 (((cfg1.win 0).blk t).view.emb (ix2 p k)) = V c main_v65 _
  refine congrArg _ (funext fun a => Fin.ext ?_)
  match a with
  | ⟨0, _⟩ => show win1_0.index t (0 : Fin 2) * 512 + 1 * p.val = t.val / 43 * 512 + p.val; rw [e0]; omega
  | ⟨1, _⟩ => show win1_0.index t (1 : Fin 2) * 256 + 1 * k.val = t.val % 43 * 256 + k.val; rw [e1]; omega

/-- The down weights' block at point t. -/
theorem blkB (c : Dev nD) (t : Fin cfg1.N) (h : Fin 4096) (k : Fin 256) :
    (iblk1 V c 1 t : Vec Ideal S4096x256 .bf16) (ix2 h k)
      = (V c main_v64 : S4096x11008.Idx → EReal) (ix2 h (⟨t.val % 43 * 256 + k.val, by have := k.isLt; omega⟩ : Fin 11008)) := by
  obtain ⟨-, -, e0, e1, -⟩ := idx_facts t
  unfold iblk1
  rw [View.read_apply]
  show V c main_v64 (((cfg1.win 1).blk t).view.emb (ix2 h k)) = V c main_v64 _
  refine congrArg _ (funext fun a => Fin.ext ?_)
  match a with
  | ⟨0, _⟩ => show win1_1.index t (0 : Fin 2) * 4096 + 1 * h.val = h.val; rw [e0]; omega
  | ⟨1, _⟩ => show win1_1.index t (1 : Fin 2) * 256 + 1 * k.val = t.val % 43 * 256 + k.val; rw [e1]; omega

/-- The rows' partial sums after a point: the first t mod 43 + 1 column blocks, for the rows of row block t / 43. -/
def Acc (A B : S4096x11008.Idx → EReal) (n : ℕ) (hn : n < 344) (p : Fin 512) (h : Fin 4096) : EReal :=
  psum (rowf A B (⟨n / 43 * 512 + p.val, by have := p.isLt; omega⟩ : Fin 4096) h) (n % 43 + 1)

/-- A resetting point (t mod 43 = 0) leaves the first column block's sums. -/
theorem stepA (c : Dev nD) (t : Fin cfg1.N) (h0 : t.val % 43 = 0) (p : Fin 512) (h : Fin 4096) :
    (outsAt1 V c t.val t.isLt : Vec Ideal S512x4096 .f32) (ix2 p h) = Acc (V c main_v65) (V c main_v64) t.val (lt_N t) p h := by
  have hN := lt_N t
  rw [outsAt1_A V c t h0, out_A]
  exact step (iblk1 V c 0 t) (iblk1 V c 1 t) (k1_pay1 (F := Ideal)) (V c main_v65) (V c main_v64)
    (t.val / 43) (t.val % 43) (by omega) (Nat.mod_lt _ (by norm_num)) (blkA V c t) (blkB V c t) p h
    (by rw [h0]; exact (zero_entry (ix2 p h)).trans (psum_zero _).symm)

/-- Any other point adds its column block to what the point before left. -/
theorem stepB (c : Dev nD) (t : Fin cfg1.N) (h0 : ¬t.val % 43 = 0) (p : Fin 512) (h : Fin 4096)
    (ih : (outsAt1 V c (t.val - 1) (Nat.lt_of_le_of_lt (Nat.sub_le _ _) t.isLt) : Vec Ideal S512x4096 .f32) (ix2 p h)
      = Acc (V c main_v65) (V c main_v64) (t.val - 1) (by have := lt_N t; omega) p h) :
    (outsAt1 V c t.val t.isLt : Vec Ideal S512x4096 .f32) (ix2 p h) = Acc (V c main_v65) (V c main_v64) t.val (lt_N t) p h := by
  have hN := lt_N t
  rw [outsAt1_B V c t h0, out_B]
  refine step (iblk1 V c 0 t) (iblk1 V c 1 t) (outsAt1 V c (t.val - 1) (Nat.lt_of_le_of_lt (Nat.sub_le _ _) t.isLt))
    (V c main_v65) (V c main_v64) (t.val / 43) (t.val % 43) (by omega) (Nat.mod_lt _ (by norm_num)) (blkA V c t) (blkB V c t) p h ?_
  rw [ih]
  unfold Acc
  have e1 : (t.val - 1) % 43 + 1 = t.val % 43 := by omega
  have e2 : (⟨(t.val - 1) / 43 * 512 + p.val, by have := p.isLt; omega⟩ : Fin 4096) = ⟨t.val / 43 * 512 + p.val, by have := p.isLt; omega⟩ :=
    Fin.ext (by show (t.val - 1) / 43 * 512 + p.val = t.val / 43 * 512 + p.val; omega)
  rw [e1, e2]

/-- THE ACCUMULATOR after every position, by induction on the position. -/
theorem outsAt_eq (c : Dev nD) (n : ℕ) : ∀ (hn : n < cfg1.N) (p : Fin 512) (h : Fin 4096),
    (outsAt1 V c n hn : Vec Ideal S512x4096 .f32) (ix2 p h)
      = Acc (V c main_v65) (V c main_v64) n (lt_of_lt_of_eq hn (show cfg1.N = 344 from N_1)) p h := by
  induction n with
  | zero => intro hn p h; exact stepA V c ⟨0, hn⟩ rfl p h
  | succ n ih =>
    intro hn p h
    by_cases h0 : (n + 1) % 43 = 0
    · exact stepA V c ⟨n + 1, hn⟩ h0 p h
    · exact stepB V c ⟨n + 1, hn⟩ h0 p h (ih (Nat.lt_of_succ_lt hn) p h)

/-- What a flushing point t (t mod 43 = 42) holds at an entry of its block is `OUT` at that entry's place in the array. -/
theorem point_eq (c : Dev nD) (t : Fin cfg1.N) (h42 : t.val % 43 = 42) (j : S512x4096.Idx) :
    (outsAt1 V c t.val t.isLt : Vec Ideal S512x4096 .f32) j
      = OUT (V c main_v65) (V c main_v64) (((cfg1.win 2).blk t).view.emb j) := by
  obtain ⟨p, h, rfl⟩ : ∃ (p : Fin 512) (h : Fin 4096), j = ix2 p h := ⟨j 0, j 1, eq_ix2 j⟩
  obtain ⟨-, -, -, -, e4, e5⟩ := idx_facts t
  have hN := lt_N t
  rw [outsAt_eq V c t.val t.isLt p h]
  unfold Acc
  rw [h42, psum_full]
  have ha : ((cfg1.win 2).blk t).view.emb (ix2 p h)
      = ix2 (⟨t.val / 43 * 512 + p.val, by have := p.isLt; omega⟩ : Fin 4096) h :=
    funext fun a => Fin.ext (by
      match a with
      | ⟨0, _⟩ => show win1_2.index t (0 : Fin 2) * 512 + 1 * p.val = t.val / 43 * 512 + p.val; rw [e4]; omega
      | ⟨1, _⟩ => show win1_2.index t (1 : Fin 2) * 4096 + 1 * h.val = h.val; rw [e5]; omega)
  rw [ha]
  rfl

/-- What a flushing point writes back is its block of `OUT`. -/
theorem flushed_eq (c : Dev nD) (t : Fin cfg1.N) (hf : (cfg1.win 2).flush t = true) :
    (dat1 V c).flushed 2 t = ((cfg1.win 2).blk t).view.read (Elt Ideal) (OUT (V c main_v65) (V c main_v64)) := by
  have h42 : t.val % 43 = 42 := (flush1_2 t).mp hf
  show (cfg1.win 2).cut (grid1.coords t) ((dat1 V c).after 2 t) = _
  rw [after1_2]
  funext j
  exact point_eq V c t h42 j

/-- An index of the output array is in point t's block iff each coordinate is in the block's range. -/
theorem mem_blk (t : Fin cfg1.N) (i : S4096x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v66).slice (win1_2.rect t)).set ↔ _
  rw [View.set_slice_whole, Rect.mem_set_unit]
  exact Iff.rfl

/-- The output array after the region: `OUT` of the two arrays the region read. -/
theorem final (c : Dev nD) : (dat1 V c).arrAt 2 cfg1.N = OUT (V c main_v65) (V c main_v64) :=
  (dat1 V c).arrAt_eq_of_cover 2 _ (flushed_eq V c) fun i => by
    have h0 : (i 0).val < 4096 := (i 0).isLt
    have h1 : (i 1).val < 4096 := (i 1).isLt
    have hlt : (i 0).val / 512 * 43 + 42 < cfg1.N := by rw [show cfg1.N = 344 from N_1]; omega
    obtain ⟨-, -, -, -, e4, e5⟩ := idx_facts ⟨(i 0).val / 512 * 43 + 42, hlt⟩
    refine ⟨⟨(i 0).val / 512 * 43 + 42, hlt⟩, (flush1_2 _).mpr (by dsimp only; omega), ?_⟩
    rw [mem_blk]
    intro a
    match a with
    | ⟨0, _⟩ =>
      show win1_2.index ⟨(i 0).val / 512 * 43 + 42, hlt⟩ (0 : Fin 2) * 512 ≤ (i 0).val
        ∧ (i 0).val < win1_2.index ⟨(i 0).val / 512 * 43 + 42, hlt⟩ (0 : Fin 2) * 512 + 512
      rw [e4]; dsimp only; omega
    | ⟨1, _⟩ =>
      show win1_2.index ⟨(i 0).val / 512 * 43 + 42, hlt⟩ (1 : Fin 2) * 4096 ≤ (i 1).val
        ∧ (i 1).val < win1_2.index ⟨(i 0).val / 512 * 43 + 42, hlt⟩ (1 : Fin 2) * 4096 + 4096
      rw [e5]; omega

end Cert.KernelIdeal.Region1

end
-- ==== Proof.KernelValue.lean ====
/-
  The kernel program's result, entry by entry, from the buffer contents when its first region is entered.

  The fold of @main's segments at the result buffer: the last host stretch views the second region's output [4096, 4096]
  as [2, 2048, 4096]; the second region's output is `OUT` of the first region's output and the down weights (which the
  first region leaves as they were); the first region's output is `HQ` of the three arrays it reads.  Entry (b, s, h) of the
  result is therefore `outRow` of row 2048 b + s of the quantized activations.
-/
import proofs.«118606_j55250459295887_2_alg».proof.Proof.Region0
import proofs.«118606_j55250459295887_2_alg».proof.Proof.Region1

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.QuantMlp

variable (m : (ℓ : Loc nD τ sig) → Buf (Elt Ideal) ℓ) (ρ : Dev nD → PrngReg) (c : Dev nD)

/-- The first region's output when the second region is entered. -/
theorem v65_eq : (V18 m ρ c main_v65 : S4096x11008.Idx → EReal)
    = Region0.HQ (V17 m ρ c main_v16) (V17 m ρ c main_v32) (V17 m ρ c main_v48) :=
  (W18_arr m ρ c 3).trans (Region0.final (V17 m ρ) c)

/-- The down weights are not an array of the first region: it leaves them as they were. -/
theorem v64_keep : (V18 m ρ c main_v64 : S4096x11008.Idx → EReal) = V17 m ρ c main_v64 :=
  W18_of_ne m ρ c main_v64 (fun w => by fin_cases w <;> decide)

/-- The second region's output when it is left. -/
theorem v66_eq : (W19 m ρ c (Proc.devRef .tc main_v66) : S4096x4096.Idx → EReal)
    = Region1.OUT (V18 m ρ c main_v65) (V18 m ρ c main_v64) :=
  (W19_arr m ρ c 2).trans (Region1.final (V18 m ρ) c)

/-- The last host stretch: the result is the second region's output viewed as [2, 2048, 4096]. -/
theorem v67_eq : (W20 m ρ c (Proc.devRef .tc main_v67) : S2x2048x4096.Idx → EReal)
    = shapeCast S2x2048x4096 (W19 m ρ c (Proc.devRef .tc main_v66) : S4096x4096.Idx → EReal) Facts₀.shapeCasts_S4096x4096_S2x2048x4096 := by
  dsimp only [W20, hostOps2]
  after_results
  rfl

/-- Entry (b, s, h) of the result. -/
theorem result_apply (b : Fin 2) (s : Fin 2048) (h : Fin 4096) :
    (W20 m ρ c (Proc.devRef .tc main_v67) : S2x2048x4096.Idx → EReal) (ix3 b s h)
      = outRow (fun h' => (V17 m ρ c main_v16 : S4096x4096.Idx → EReal)
            (ix2 (⟨b.val * 2048 + s.val, by have := b.isLt; have := s.isLt; omega⟩ : Fin 4096) h'))
          (V17 m ρ c main_v32) (V17 m ρ c main_v48) (V17 m ρ c main_v64) h := by
  rw [v67_eq, shapeCast_apply _ _ (ix3 b s h) (ix2 (⟨b.val * 2048 + s.val, by have := b.isLt; have := s.isLt; omega⟩ : Fin 4096) h)
    (by rewrite [Shape.rowMajor_val_two, Shape.rowMajor_val_three]
        show (b.val * 2048 + s.val) * 4096 + h.val = (b.val * 2048 + s.val) * 4096 + h.val
        rfl),
    v66_eq, v65_eq, v64_keep]
  rfl

end Cert.KernelIdeal.KValue

end
-- ==== Proof.HostW.lean ====
/-
  What the host prologue leaves in the three weight buffers when the first kernel launch is entered.

  Each of the three weight arguments is fake-quantized group by group on the host (reshape to groups of 128,
  absolute value, maximum over the group, divide by 127, floor at eps, divide, round to nearest even, clip to
  [-127, 127], multiply back by the scale, reshape back) and then narrowed to bf16, which over the extended
  reals is the identity.  The reference program applies the same operations at the same shapes to the same
  argument, so the buffer's contents and the reference's stage are one term: nothing is read at an index.
  Each proof evaluates the fold of host operations at the buffer, leaving the composed operations applied to
  the launch contents of the argument, and compares that with the reference's stage by unfolding.
-/
import proofs.«118606_j55250459295887_2_alg».proof.Proof.Gen.KernelIdeal.Frame
import proofs.«118606_j55250459295887_2_alg».proof.Proof.Gen.ReferenceIdeal.Read
import proofs.«118606_j55250459295887_2_alg».proof.Proof.Spec
import Idealize.ShloMosaic.Lib.StableHlo.Run

set_option maxRecDepth 16384

noncomputable section

namespace Cert.KernelIdeal.HostValue

open Cert.KernelIdeal Idealize.ShloMosaic Idealize.ShloMosaic.TcCoe Idealize.SL.Sem Idealize.ShloMosaic.ValueIdx Cert.QuantMlp
open Idealize.ShloMosaic.StableHlo

variable (m : (ℓ : Loc nD τ sig) → Buf (Elt Ideal) ℓ) (ρ : Dev nD → PrngReg) (c : Dev nD)

/-- The gate weights as the first launch finds them: the reference's fake-quantized gate weights. -/
theorem v32_eq : (Gen.V17 m ρ c main_v32 : S11008x4096.Idx → EReal) = Cert.ReferenceIdeal.Read.val_main_v29 (F := Ideal) (m ((c : Thread nD τ).loc main_arg1)) := by
  dsimp only [Gen.V17, Gen.W0, Gen.W1, Gen.W2, Gen.W3, Gen.W4, Gen.W5, Gen.W6, Gen.W7, Gen.W8, Gen.W9, Gen.W10, Gen.W11, Gen.W12, Gen.W13, Gen.W14, Gen.W15, Gen.W16, Gen.W17]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16]
  after_results_simp
  rfl

/-- The up weights as the first launch finds them: the reference's fake-quantized up weights. -/
theorem v48_eq : (Gen.V17 m ρ c main_v48 : S11008x4096.Idx → EReal) = Cert.ReferenceIdeal.Read.val_main_v45 (F := Ideal) (m ((c : Thread nD τ).loc main_arg2)) := by
  dsimp only [Gen.V17, Gen.W0, Gen.W1, Gen.W2, Gen.W3, Gen.W4, Gen.W5, Gen.W6, Gen.W7, Gen.W8, Gen.W9, Gen.W10, Gen.W11, Gen.W12, Gen.W13, Gen.W14, Gen.W15, Gen.W16, Gen.W17]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16]
  after_results_simp
  rfl

/-- The down weights as the first launch finds them: the reference's fake-quantized down weights. -/
theorem v64_eq : (Gen.V17 m ρ c main_v64 : S4096x11008.Idx → EReal) = Cert.ReferenceIdeal.Read.val_main_v78 (F := Ideal) (m ((c : Thread nD τ).loc main_arg3)) := by
  dsimp only [Gen.V17, Gen.W0, Gen.W1, Gen.W2, Gen.W3, Gen.W4, Gen.W5, Gen.W6, Gen.W7, Gen.W8, Gen.W9, Gen.W10, Gen.W11, Gen.W12, Gen.W13, Gen.W14, Gen.W15, Gen.W16, Gen.W17]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16]
  after_results_simp
  rfl

end Cert.KernelIdeal.HostValue
-- ==== Proof.HostX.lean ====
/-
  What the host prologue leaves in the activation buffer when the first kernel launch is entered, read at (row, column).

  The activations x : [2, 2048, 4096] are viewed as 4096 rows of 32 groups of 128 lanes, each group is fake-quantized
  (absolute value, maximum over the group, divide by 127, floor at eps, divide, round to nearest even, clip to
  [-127, 127], multiply back by the scale), the groups are laid back into rows of length 4096, and the result is
  narrowed to bf16, which over the extended reals is the identity.

  The stages below are those operations composed, named by what they hold.  The buffer's contents are the last stage
  of the launch contents of x; each stage is then read at coordinates: the two reshapes by row-major position, the
  maximum over a group as the fold of max over its 128 lanes, a broadcast along a unit axis as the value on that axis's
  one coordinate, the pointwise operations directly.  Element (r, h) comes out as the specification's fake-quantized
  group of row r that holds column h, at lane h mod 128.
-/
import proofs.«118606_j55250459295887_2_alg».proof.Proof.Gen.KernelIdeal.Frame
import proofs.«118606_j55250459295887_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.KernelIdeal.HostValue

open Cert.KernelIdeal Idealize.ShloMosaic Idealize.ShloMosaic.TcCoe Idealize.SL.Sem Idealize.ShloMosaic.ValueIdx Cert.QuantMlp
open Idealize.ShloMosaic.StableHlo

/-! ## The stages -/

/-- The activations as 4096 rows of 32 groups of 128 lanes. -/
def xg (x0 : (⟨S2x2048x4096, .f32⟩ : BufTy).Contents (Elt Ideal)) : (⟨S4096x32x128, .f32⟩ : BufTy).Contents (Elt Ideal) :=
  shapeCast _ (shapeCast _ x0 Gen.shapeCasts_S2x2048x4096_S4096x4096 : (⟨S4096x4096, .f32⟩ : BufTy).Contents (Elt Ideal))
    Gen.shapeCasts_S4096x4096_S4096x32x128

/-- The largest magnitude of each group. -/
def xabsmax (x0 : (⟨S2x2048x4096, .f32⟩ : BufTy).Contents (Elt Ideal)) : (⟨S4096x32, .f32⟩ : BufTy).Contents (Elt Ideal) :=
  Host.reduce (FloatOps.maximumf (F := Ideal) (φ := .f32)) (Host.absf (F := Ideal) (φ := .f32) (xg x0)) (constant (F := Ideal) S_ .f32 0xFF800000#32 : (⟨S_, .f32⟩ : BufTy).Contents (Elt Ideal))
    Gen.reducesTo_S4096x32x128_S4096x32_d2 Gen.h_S_

/-- The scale of each group, kept on a unit lane axis. -/
def xscale (x0 : (⟨S2x2048x4096, .f32⟩ : BufTy).Contents (Elt Ideal)) : (⟨S4096x32x1, .f32⟩ : BufTy).Contents (Elt Ideal) :=
  maximumf (F := Ideal)
    (Host.divf (F := Ideal) (broadcastInDim S4096x32x1 ![0, 1] Gen.bcast_S4096x32_S4096x32x1_0_1 (xabsmax x0))
      (broadcastInDim S4096x32x1 ![] Gen.bcast_S_S4096x32x1 (constant (F := Ideal) S_ .f32 0x42FE0000#32 : (⟨S_, .f32⟩ : BufTy).Contents (Elt Ideal))))
    (broadcastInDim S4096x32x1 ![] Gen.bcast_S_S4096x32x1 (constant (F := Ideal) S_ .f32 0x322BCC77#32 : (⟨S_, .f32⟩ : BufTy).Contents (Elt Ideal)))

/-- The scale of each group, repeated on its 128 lanes. -/
def xscaleLanes (x0 : (⟨S2x2048x4096, .f32⟩ : BufTy).Contents (Elt Ideal)) : (⟨S4096x32x128, .f32⟩ : BufTy).Contents (Elt Ideal) :=
  broadcastInDim S4096x32x128 ![0, 1, 2] Gen.bcast_S4096x32x1_S4096x32x128_0_1_2 (xscale x0)

/-- Every lane divided by its group's scale, rounded, clipped and multiplied back. -/
def xq (x0 : (⟨S2x2048x4096, .f32⟩ : BufTy).Contents (Elt Ideal)) : (⟨S4096x32x128, .f32⟩ : BufTy).Contents (Elt Ideal) :=
  mulf (F := Ideal)
    (minimumf (F := Ideal)
      (broadcastInDim S4096x32x128 ![] Gen.bcast_S_S4096x32x128 (id (constant (F := Ideal) S_ .f32 0x42FE0000#32 : (⟨S_, .f32⟩ : BufTy).Contents (Elt Ideal))))
      (maximumf (F := Ideal)
        (broadcastInDim S4096x32x128 ![] Gen.bcast_S_S4096x32x128 (id (constant (F := Ideal) S_ .f32 0xC2FE0000#32 : (⟨S_, .f32⟩ : BufTy).Contents (Elt Ideal))))
        (Host.roundeven (F := Ideal) (Host.divf (F := Ideal) (xg x0) (xscaleLanes x0)))))
    (xscaleLanes x0)

/-- The quantized groups laid back into rows of length 4096, narrowed. -/
def xout (x0 : (⟨S2x2048x4096, .f32⟩ : BufTy).Contents (Elt Ideal)) : (⟨S4096x4096, .bf16⟩ : BufTy).Contents (Elt Ideal) :=
  truncf (F := Ideal) .bf16 (shapeCast _ (xq x0) Gen.shapeCasts_S4096x32x128_S4096x4096 : (⟨S4096x4096, .f32⟩ : BufTy).Contents (Elt Ideal))
    Gen.bitsLt_bf16_f32

/-! ## The buffer holds the last stage -/

section Buffer
variable (m : (ℓ : Loc nD τ sig) → Buf (Elt Ideal) ℓ) (ρ : Dev nD → PrngReg) (c : Dev nD)

/-- The activation buffer as the first launch finds it: the stages applied to the launch contents of x. -/
theorem v16_eq_xout : (Gen.V17 m ρ c main_v16 : S4096x4096.Idx → EReal) = xout (m ((c : Thread nD τ).loc main_arg0)) := by
  dsimp only [Gen.V17, Gen.W0, Gen.W1, Gen.W2, Gen.W3, Gen.W4, Gen.W5, Gen.W6, Gen.W7, Gen.W8, Gen.W9, Gen.W10, Gen.W11, Gen.W12, Gen.W13, Gen.W14, Gen.W15, Gen.W16, Gen.W17]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16]
  after_results_simp
  rfl

end Buffer

/-! ## The stages at coordinates -/

section Coordinates
variable (x0 : (⟨S2x2048x4096, .f32⟩ : BufTy).Contents (Elt Ideal))

/-- Lane k of group g of row r is x at batch r / 2048, position r mod 2048, column 128 g + k. -/
theorem xg_apply (r : Fin 4096) (g : Fin 32) (k : Fin 128) :
    xg x0 (ix3 r g k)
      = x0 (ix3 (⟨r.val / 2048, by have := r.isLt; omega⟩ : Fin 2) (⟨r.val % 2048, Nat.mod_lt _ (by norm_num)⟩ : Fin 2048)
          (⟨g.val * 128 + k.val, by have := g.isLt; have := k.isLt; omega⟩ : Fin 4096)) := by
  unfold xg
  rw [shapeCast_apply _ Gen.shapeCasts_S4096x4096_S4096x32x128 (ix3 r g k)
        (ix2 r (⟨g.val * 128 + k.val, by have := g.isLt; have := k.isLt; omega⟩ : Fin 4096))
        (by rewrite [Shape.rowMajor_val_two, Shape.rowMajor_val_three]
            show r.val * 4096 + (g.val * 128 + k.val) = (r.val * 32 + g.val) * 128 + k.val
            omega)]
  exact shapeCast_apply x0 Gen.shapeCasts_S2x2048x4096_S4096x4096 _ _
        (by rewrite [Shape.rowMajor_val_three, Shape.rowMajor_val_two]
            have := r.isLt
            show (r.val / 2048 * 2048 + r.val % 2048) * 4096 + (g.val * 128 + k.val) = r.val * 4096 + (g.val * 128 + k.val)
            omega)

/-- The source index over group (r, g) with lane k inserted is (r, g, k). -/
theorem lift_ix2 (hR : S4096x32x128.Reduces [2] S4096x32) (r : Fin 4096) (g : Fin 32) (k : Fin 128) :
    hR.lift (ix2 r g) k = ix3 r g k :=
  funext fun d => match d with
    | ⟨0, _⟩ => rfl
    | ⟨1, _⟩ => rfl
    | ⟨2, _⟩ => rfl

/-- The largest magnitude of group (r, g): the fold of max over its 128 lanes from -inf. -/
theorem xabsmax_apply (r : Fin 4096) (g : Fin 32) :
    xabsmax x0 (ix2 r g)
      = (Finset.univ : Finset (Fin 128)).fold max (Ideal.ofBits .f32 0xFF800000#32)
          (fun k => max (xg x0 (ix3 r g k)) (-(xg x0 (ix3 r g k)))) := by
  have hR : S4096x32x128.Reduces [2] S4096x32 := by decide
  unfold xabsmax
  rw [Host.reduce_eq_fold_single FloatOps.maximumf _ _ Gen.reducesTo_S4096x32x128_S4096x32_d2 hR Gen.h_S_ (ix2 r g)]
  refine congrArg (fun f => Finset.fold max (Ideal.ofBits .f32 0xFF800000#32) f (Finset.univ : Finset (Fin 128))) ?_
  funext k
  exact congrArg (fun i => max (xg x0 i) (-(xg x0 i))) (lift_ix2 hR r g k)

/-- The scale of group (r, g) is the specification's scale of its 128 lanes. -/
theorem xscale_apply (r : Fin 4096) (g : Fin 32) (z : Fin 1) :
    xscale x0 (ix3 r g z) = scale (fun k => xg x0 (ix3 r g k)) := by
  unfold xscale scale
  show max (Ideal.div (broadcastInDim S4096x32x1 ![0, 1] Gen.bcast_S4096x32_S4096x32x1_0_1 (xabsmax x0) (ix3 r g z))
        (Ideal.ofBits .f32 0x42FE0000#32)) (Ideal.ofBits .f32 0x322BCC77#32) = _
  rw [broadcastInDim_apply _ Gen.bcast_S4096x32_S4096x32x1_0_1 (xabsmax x0) (ix3 r g z) (ix2 r g) (fun a => match a with
        | ⟨0, _⟩ => by show r.val = if (4096 : Nat) = 1 then 0 else r.val; rw [if_neg (by decide)]
        | ⟨1, _⟩ => by show g.val = if (32 : Nat) = 1 then 0 else g.val; rw [if_neg (by decide)]),
      xabsmax_apply]

/-- Every lane of group (r, g) carries the group's scale. -/
theorem xscaleLanes_apply (r : Fin 4096) (g : Fin 32) (k : Fin 128) :
    xscaleLanes x0 (ix3 r g k) = scale (fun k' => xg x0 (ix3 r g k')) := by
  unfold xscaleLanes
  rw [broadcastInDim_apply _ Gen.bcast_S4096x32x1_S4096x32x128_0_1_2 (xscale x0) (ix3 r g k) (ix3 r g (0 : Fin 1)) (fun a => match a with
        | ⟨0, _⟩ => by show r.val = if (4096 : Nat) = 1 then 0 else r.val; rw [if_neg (by decide)]
        | ⟨1, _⟩ => by show g.val = if (32 : Nat) = 1 then 0 else g.val; rw [if_neg (by decide)]
        | ⟨2, _⟩ => by show 0 = if (1 : Nat) = 1 then 0 else k.val; rw [if_pos rfl]),
      xscale_apply]

/-- Lane k of group (r, g) after quantization: the specification's requantized entry at the group's scale. -/
theorem xq_apply (r : Fin 4096) (g : Fin 32) (k : Fin 128) :
    xq x0 (ix3 r g k) = requant (scale (fun k' => xg x0 (ix3 r g k'))) (xg x0 (ix3 r g k)) := by
  unfold xq requant
  show min (Ideal.ofBits .f32 0x42FE0000#32)
        (max (Ideal.ofBits .f32 0xC2FE0000#32)
          (Ideal.liftRound Ideal.roundHalfEven (Ideal.div (xg x0 (ix3 r g k)) (xscaleLanes x0 (ix3 r g k)))))
      * xscaleLanes x0 (ix3 r g k) = _
  rw [xscaleLanes_apply]

/-- Column h of row r is lane h mod 128 of group h / 128. -/
theorem xout_apply (r : Fin 4096) (h : Fin 4096) :
    xout x0 (ix2 r h)
      = xq x0 (ix3 r (⟨h.val / 128, by have := h.isLt; omega⟩ : Fin 32) (⟨h.val % 128, Nat.mod_lt _ (by norm_num)⟩ : Fin 128)) := by
  unfold xout
  show shapeCast S4096x4096 (xq x0) Gen.shapeCasts_S4096x32x128_S4096x4096 (ix2 r h) = _
  exact shapeCast_apply (xq x0) Gen.shapeCasts_S4096x32x128_S4096x4096 _ _
        (by rewrite [Shape.rowMajor_val_three, Shape.rowMajor_val_two]
            have := h.isLt
            show (r.val * 32 + h.val / 128) * 128 + h.val % 128 = r.val * 4096 + h.val
            omega)

/-- Element (r, h) of the last stage: row r of x, fake-quantized group by group, at column h. -/
theorem xout_eq_qrow (r : Fin 4096) (h : Fin 4096) :
    xout x0 (ix2 r h)
      = qrow4096 (fun h' => x0 (ix3 (⟨r.val / 2048, by have := r.isLt; omega⟩ : Fin 2)
          (⟨r.val % 2048, Nat.mod_lt _ (by norm_num)⟩ : Fin 2048) h')) h := by
  rw [xout_apply, xq_apply]
  simp only [xg_apply]
  rfl

end Coordinates

/-! ## The activation buffer at (row, column) -/

section Final
variable (m : (ℓ : Loc nD τ sig) → Buf (Elt Ideal) ℓ) (ρ : Dev nD → PrngReg) (c : Dev nD)

/-- Element (r, h) of the activation buffer as the first launch finds it: row r of x (batch r / 2048, position
    r mod 2048), fake-quantized group by group, at column h. -/
theorem v16_apply (r : Fin 4096) (h : Fin 4096) :
    (Gen.V17 m ρ c main_v16 : S4096x4096.Idx → EReal) (ix2 r h)
      = qrow4096 (fun h' => (m ((c : Thread nD τ).loc main_arg0) : S2x2048x4096.Idx → EReal)
          (ix3 (⟨r.val / 2048, by have := r.isLt; omega⟩ : Fin 2) (⟨r.val % 2048, Nat.mod_lt _ (by norm_num)⟩ : Fin 2048) h')) h := by
  rw [v16_eq_xout]
  exact xout_eq_qrow _ r h

end Final

end Cert.KernelIdeal.HostValue
-- ==== Proof.RefX.lean ====
/-
  The reference's first stage read at an index: its fake-quantized activations are the row `x[b, s, ·]` quantized group by
  group (`ref_x`).

  The program reshapes `x` to [2, 2048, 32, 128], so that a group is the last axis; takes each group's largest magnitude
  (a maximum over the last axis from -inf), divides it by 127 and bounds it below by eps to get the group's scale; then
  divides each entry by its group's scale, rounds to the nearest integer (ties to even), clips to [-127, 127], multiplies
  by the scale again, and reshapes back to [2, 2048, 4096]. Column `h` of the row lies in group `h / 128` at lane
  `h % 128`, and lane `k` of group `g` is column `g * 128 + k`.
-/
import proofs.«118606_j55250459295887_2_alg».proof.Proof.Gen.ReferenceIdeal.Read
import proofs.«118606_j55250459295887_2_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.QuantMlp

/-- Lane `k` of group `g` of a row of length 4096. -/
def col4096 (g : Fin 32) (k : Fin 128) : Fin 4096 := ⟨g.val * 128 + k.val, by have := g.isLt; have := k.isLt; omega⟩

/-- Entry (b, s, g, k) of the grouped array is entry (b, s, g * 128 + k) of `x`. -/
theorem idx_v0_ix4 (b : Fin 2) (s : Fin 2048) (g : Fin 32) (k : Fin 128) :
    idx_main_v0 (ix4 b s g k) = ix3 b s (col4096 g k) := by
  funext a
  match a with
  | ⟨0, _⟩ => apply Fin.ext; have := b.isLt; have := s.isLt; have := g.isLt; have := k.isLt; show (((b.val * 2048 + s.val) * 32 + g.val) * 128 + k.val) / 8388608 = b.val; omega
  | ⟨1, _⟩ => apply Fin.ext; have := b.isLt; have := s.isLt; have := g.isLt; have := k.isLt; show (((b.val * 2048 + s.val) * 32 + g.val) * 128 + k.val) / 4096 % 2048 = s.val; omega
  | ⟨2, _⟩ => apply Fin.ext; have := b.isLt; have := s.isLt; have := g.isLt; have := k.isLt; show (((b.val * 2048 + s.val) * 32 + g.val) * 128 + k.val) % 4096 = g.val * 128 + k.val; omega

/-- The grouped array at (b, s, g, k). -/
theorem v0_ix4 (x0 : (⟨S2x2048x4096, .f32⟩ : BufTy).Contents (Elt Ideal)) (b : Fin 2) (s : Fin 2048) (g : Fin 32) (k : Fin 128) :
    val_main_v0 (F := Ideal) x0 (ix4 b s g k) = x0 (ix3 b s (col4096 g k)) := by
  rw [val_main_v0_apply, idx_v0_ix4]

/-- The maximum over a group's lanes of the magnitudes `max v (-v)`, from -inf. -/
theorem v2_ix3 (x0 : (⟨S2x2048x4096, .f32⟩ : BufTy).Contents (Elt Ideal)) (b : Fin 2) (s : Fin 2048) (g : Fin 32) :
    val_main_v2 (F := Ideal) x0 (ix3 b s g)
      = (Finset.univ : Finset (Fin 128)).fold max (Ideal.ofBits .f32 0xFF800000#32)
          (fun k => max (x0 (ix3 b s (col4096 g k))) (-(x0 (ix3 b s (col4096 g k))))) := by
  unfold val_main_v2
  rw [Host.reduce_eq_fold_single FloatOps.maximumf _ _ reducesTo_S2x2048x32x128_S2x2048x32_d3 (by decide : S2x2048x32x128.Reduces [3] S2x2048x32) h_S_]
  have hl : ∀ k : Fin 128, (by decide : S2x2048x32x128.Reduces [3] S2x2048x32).lift (ix3 b s g) k = ix4 b s g k := by
    intro k; funext a
    match a with
    | ⟨0, _⟩ => rfl
    | ⟨1, _⟩ => rfl
    | ⟨2, _⟩ => rfl
    | ⟨3, _⟩ => rfl
  have hf : (val_main_v1 (F := Ideal) x0 ∘ (by decide : S2x2048x32x128.Reduces [3] S2x2048x32).lift (ix3 b s g))
      = fun k : Fin 128 => max (x0 (ix3 b s (col4096 g k))) (-(x0 (ix3 b s (col4096 g k)))) := by
    refine funext fun (k : Fin 128) => ?_
    show val_main_v1 (F := Ideal) x0 ((by decide : S2x2048x32x128.Reduces [3] S2x2048x32).lift (ix3 b s g) k) = _
    rw [hl k, val_main_v1_apply, v0_ix4]
    rfl
  rw [hf]
  rfl

/-- The group scale's cell (one per group) holds the scale of that group of `x`. -/
theorem v7_eq (x0 : (⟨S2x2048x4096, .f32⟩ : BufTy).Contents (Elt Ideal)) (j : S2x2048x32x1.Idx) :
    val_main_v7 (F := Ideal) x0 j
      = max (Ideal.div (val_main_v2 (F := Ideal) x0 (idx_main_v3 j)) (Ideal.ofBits .f32 0x42FE0000#32))
          (Ideal.ofBits .f32 0x322BCC77#32) := by
  rw [val_main_v7_apply, val_main_v5_apply, val_main_v3_apply, val_main_v4_apply, val_main_v6_apply]
  rfl

/-- … which, at the cell of group `g` of row (b, s), is that group's scale. -/
theorem v7_scale (x0 : (⟨S2x2048x4096, .f32⟩ : BufTy).Contents (Elt Ideal)) (b : Fin 2) (s : Fin 2048) (g : Fin 32)
    (j : S2x2048x32x1.Idx) (hj : idx_main_v3 j = ix3 b s g) :
    val_main_v7 (F := Ideal) x0 j = scale (fun k => x0 (ix3 b s (col4096 g k))) := by
  rw [v7_eq, hj, v2_ix3]
  rfl

/-- Entry (b, s, g, k) of the quantized grouped array is lane `k` of the fake-quantized group `g` of row (b, s). -/
theorem v13_ix4 (x0 : (⟨S2x2048x4096, .f32⟩ : BufTy).Contents (Elt Ideal)) (b : Fin 2) (s : Fin 2048) (g : Fin 32) (k : Fin 128) :
    val_main_v13 (F := Ideal) x0 (ix4 b s g k) = qd (fun k' => x0 (ix3 b s (col4096 g k'))) k := by
  have h8 : idx_main_v3 (idx_main_v8 (ix4 b s g k)) = ix3 b s g := by
    funext a
    match a with
    | ⟨0, _⟩ => rfl
    | ⟨1, _⟩ => rfl
    | ⟨2, _⟩ => rfl
  rw [val_main_v13_apply, val_main_v11_apply, val_main_v12_apply, val_main_call1_v4_apply, val_main_call1_v2_apply,
    val_main_call1_v1_apply, val_main_v10_apply, val_main_v9_apply, val_main_v8_apply,
    v7_scale x0 b s g _ h8, v0_ix4]
  rfl

/-- The reference's quantized activations at (b, s, h): the row `x[b, s, ·]` quantized group by group, at column `h`. -/
theorem ref_x (x0 : (⟨S2x2048x4096, .f32⟩ : BufTy).Contents (Elt Ideal)) (b : Fin 2) (s : Fin 2048) (h : Fin 4096) :
    val_main_v14 (F := Ideal) x0 (ix3 b s h) = qrow4096 (fun h' => x0 (ix3 b s h')) h := by
  have hi : idx_main_v14 (ix3 b s h)
      = ix4 b s (⟨h.val / 128, by have := h.isLt; omega⟩ : Fin 32) (⟨h.val % 128, Nat.mod_lt _ (by norm_num)⟩ : Fin 128) := by
    funext a
    match a with
    | ⟨0, _⟩ => apply Fin.ext; have := b.isLt; have := s.isLt; have := h.isLt; show ((b.val * 2048 + s.val) * 4096 + h.val) / 8388608 = b.val; omega
    | ⟨1, _⟩ => apply Fin.ext; have := b.isLt; have := s.isLt; have := h.isLt; show ((b.val * 2048 + s.val) * 4096 + h.val) / 4096 % 2048 = s.val; omega
    | ⟨2, _⟩ => apply Fin.ext; have := b.isLt; have := s.isLt; have := h.isLt; show ((b.val * 2048 + s.val) * 4096 + h.val) / 128 % 32 = h.val / 128; omega
    | ⟨3, _⟩ => apply Fin.ext; have := b.isLt; have := s.isLt; have := h.isLt; show ((b.val * 2048 + s.val) * 4096 + h.val) % 128 = h.val % 128; omega
  rw [val_main_v14_apply, hi, v13_ix4]
  rfl

end Cert.ReferenceIdeal.RefValue
-- ==== Proof.RefHidden.lean ====
/-
  The reference's hidden stage read at an index: for one row (b, s), with `xr` the row of quantized activations and the
  two quantized weight arrays kept as they are, the gate and up projections are the sums `∑ h, xr h * w[n, h]`, the
  hidden activation is `(gate * logistic gate) * up`, and the program's quantized hidden array holds that row
  quantized group by group (`ref_hq`).

  The program spells `logistic g` as `1 / (1 + exp (-g))`, which is its definition; the word of its constant is one.
  The hidden array is quantized like the activations, over [2, 2048, 86, 128]: column `n` of a row of length 11008 lies
  in group `n / 128` at lane `n % 128`.
-/
import proofs.«118606_j55250459295887_2_alg».proof.Proof.RefX
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.QuantMlp

/-- Lane `k` of group `g` of a row of length 11008. -/
def col11008 (g : Fin 86) (k : Fin 128) : Fin 11008 := ⟨g.val * 128 + k.val, by have := g.isLt; have := k.isLt; omega⟩

/-- The gate projection at (b, s, n). -/
theorem v30_ix3 (x0 : (⟨S2x2048x4096, .f32⟩ : BufTy).Contents (Elt Ideal)) (x1 : (⟨S11008x4096, .f32⟩ : BufTy).Contents (Elt Ideal))
    (b : Fin 2) (s : Fin 2048) (n : Fin 11008) :
    val_main_v30 (F := Ideal) x0 x1 (ix3 b s n)
      = proj (fun h' => val_main_v14 (F := Ideal) x0 (ix3 b s h')) (val_main_v29 (F := Ideal) x1) n := by
  rw [val_main_v30_apply]
  unfold proj
  refine Finset.sum_congr rfl fun k _ => ?_
  have hl : lidx_main_v30 (ix3 b s n) k = ix3 b s k := by
    funext a
    match a with
    | ⟨0, _⟩ => rfl
    | ⟨1, _⟩ => rfl
    | ⟨2, _⟩ => rfl
  have hr : ridx_main_v30 (ix3 b s n) k = ix2 n k := by
    funext a
    match a with
    | ⟨0, _⟩ => rfl
    | ⟨1, _⟩ => rfl
  rw [hl, hr]

/-- The up projection at (b, s, n). -/
theorem v46_ix3 (x0 : (⟨S2x2048x4096, .f32⟩ : BufTy).Contents (Elt Ideal)) (x2 : (⟨S11008x4096, .f32⟩ : BufTy).Contents (Elt Ideal))
    (b : Fin 2) (s : Fin 2048) (n : Fin 11008) :
    val_main_v46 (F := Ideal) x0 x2 (ix3 b s n)
      = proj (fun h' => val_main_v14 (F := Ideal) x0 (ix3 b s h')) (val_main_v45 (F := Ideal) x2) n := by
  rw [val_main_v46_apply]
  unfold proj
  refine Finset.sum_congr rfl fun k _ => ?_
  have hl : lidx_main_v46 (ix3 b s n) k = ix3 b s k := by
    funext a
    match a with
    | ⟨0, _⟩ => rfl
    | ⟨1, _⟩ => rfl
    | ⟨2, _⟩ => rfl
  have hr : ridx_main_v46 (ix3 b s n) k = ix2 n k := by
    funext a
    match a with
    | ⟨0, _⟩ => rfl
    | ⟨1, _⟩ => rfl
  rw [hl, hr]

/-- The hidden activation at (b, s, n): `(gate * logistic gate) * up`. -/
theorem v48_ix3 (x0 : (⟨S2x2048x4096, .f32⟩ : BufTy).Contents (Elt Ideal)) (x1 x2 : (⟨S11008x4096, .f32⟩ : BufTy).Contents (Elt Ideal))
    (b : Fin 2) (s : Fin 2048) (n : Fin 11008) :
    val_main_v48 (F := Ideal) x0 x1 x2 (ix3 b s n)
      = hidRow (fun h' => val_main_v14 (F := Ideal) x0 (ix3 b s h')) (val_main_v29 (F := Ideal) x1) (val_main_v45 (F := Ideal) x2) n := by
  rw [val_main_v48_apply, val_main_v47_apply, val_main_call6_v5_apply, val_main_call6_v4_apply, val_main_call6_v3_apply,
    val_main_call6_v2_apply, val_main_call6_v1_apply, val_main_call6_v0_apply, val_main_call6_cst_0_apply,
    val_main_call6_cst_apply, v30_ix3, v46_ix3]
  unfold hidRow Ideal.logistic
  simp only [Ideal.ofBits_def, Ideal.ofBits_one_f32]
  rfl

/-- Entry (b, s, g, k) of the grouped hidden array is entry (b, s, g * 128 + k) of the hidden array. -/
theorem idx_v49_ix4 (b : Fin 2) (s : Fin 2048) (g : Fin 86) (k : Fin 128) :
    idx_main_v49 (ix4 b s g k) = ix3 b s (col11008 g k) := by
  funext a
  match a with
  | ⟨0, _⟩ => apply Fin.ext; have := b.isLt; have := s.isLt; have := g.isLt; have := k.isLt; show (((b.val * 2048 + s.val) * 86 + g.val) * 128 + k.val) / 22544384 = b.val; omega
  | ⟨1, _⟩ => apply Fin.ext; have := b.isLt; have := s.isLt; have := g.isLt; have := k.isLt; show (((b.val * 2048 + s.val) * 86 + g.val) * 128 + k.val) / 11008 % 2048 = s.val; omega
  | ⟨2, _⟩ => apply Fin.ext; have := b.isLt; have := s.isLt; have := g.isLt; have := k.isLt; show (((b.val * 2048 + s.val) * 86 + g.val) * 128 + k.val) % 11008 = g.val * 128 + k.val; omega

/-- The grouped hidden array at (b, s, g, k). -/
theorem v49_ix4 (x0 : (⟨S2x2048x4096, .f32⟩ : BufTy).Contents (Elt Ideal)) (x1 x2 : (⟨S11008x4096, .f32⟩ : BufTy).Contents (Elt Ideal))
    (b : Fin 2) (s : Fin 2048) (g : Fin 86) (k : Fin 128) :
    val_main_v49 (F := Ideal) x0 x1 x2 (ix4 b s g k) = val_main_v48 (F := Ideal) x0 x1 x2 (ix3 b s (col11008 g k)) := by
  rw [val_main_v49_apply, idx_v49_ix4]

/-- The maximum over a group's lanes of the hidden activation's magnitudes, from -inf. -/
theorem v51_ix3 (x0 : (⟨S2x2048x4096, .f32⟩ : BufTy).Contents (Elt Ideal)) (x1 x2 : (⟨S11008x4096, .f32⟩ : BufTy).Contents (Elt Ideal))
    (b : Fin 2) (s : Fin 2048) (g : Fin 86) :
    val_main_v51 (F := Ideal) x0 x1 x2 (ix3 b s g)
      = (Finset.univ : Finset (Fin 128)).fold max (Ideal.ofBits .f32 0xFF800000#32)
          (fun k => max (val_main_v48 (F := Ideal) x0 x1 x2 (ix3 b s (col11008 g k)))
            (-(val_main_v48 (F := Ideal) x0 x1 x2 (ix3 b s (col11008 g k))))) := by
  unfold val_main_v51
  rw [Host.reduce_eq_fold_single FloatOps.maximumf _ _ reducesTo_S2x2048x86x128_S2x2048x86_d3 (by decide : S2x2048x86x128.Reduces [3] S2x2048x86) h_S_]
  have hl : ∀ k : Fin 128, (by decide : S2x2048x86x128.Reduces [3] S2x2048x86).lift (ix3 b s g) k = ix4 b s g k := by
    intro k; funext a
    match a with
    | ⟨0, _⟩ => rfl
    | ⟨1, _⟩ => rfl
    | ⟨2, _⟩ => rfl
    | ⟨3, _⟩ => rfl
  have hf : (val_main_v50 (F := Ideal) x0 x1 x2 ∘ (by decide : S2x2048x86x128.Reduces [3] S2x2048x86).lift (ix3 b s g))
      = fun k : Fin 128 => max (val_main_v48 (F := Ideal) x0 x1 x2 (ix3 b s (col11008 g k)))
          (-(val_main_v48 (F := Ideal) x0 x1 x2 (ix3 b s (col11008 g k)))) := by
    refine funext fun (k : Fin 128) => ?_
    show val_main_v50 (F := Ideal) x0 x1 x2 ((by decide : S2x2048x86x128.Reduces [3] S2x2048x86).lift (ix3 b s g) k) = _
    rw [hl k, val_main_v50_apply, v49_ix4]
    rfl
  rw [hf]
  rfl

/-- The hidden array's group scale cell, from the group's largest magnitude … -/
theorem v56_eq (x0 : (⟨S2x2048x4096, .f32⟩ : BufTy).Contents (Elt Ideal)) (x1 x2 : (⟨S11008x4096, .f32⟩ : BufTy).Contents (Elt Ideal))
    (j : S2x2048x86x1.Idx) :
    val_main_v56 (F := Ideal) x0 x1 x2 j
      = max (Ideal.div (val_main_v51 (F := Ideal) x0 x1 x2 (idx_main_v52 j)) (Ideal.ofBits .f32 0x42FE0000#32))
          (Ideal.ofBits .f32 0x322BCC77#32) := by
  rw [val_main_v56_apply, val_main_v54_apply, val_main_v52_apply, val_main_v53_apply, val_main_v55_apply]
  rfl

/-- … which, at the cell of group `g` of row (b, s), is that group's scale. -/
theorem v56_scale (x0 : (⟨S2x2048x4096, .f32⟩ : BufTy).Contents (Elt Ideal)) (x1 x2 : (⟨S11008x4096, .f32⟩ : BufTy).Contents (Elt Ideal))
    (b : Fin 2) (s : Fin 2048) (g : Fin 86) (j : S2x2048x86x1.Idx) (hj : idx_main_v52 j = ix3 b s g) :
    val_main_v56 (F := Ideal) x0 x1 x2 j = scale (fun k => val_main_v48 (F := Ideal) x0 x1 x2 (ix3 b s (col11008 g k))) := by
  rw [v56_eq, hj, v51_ix3]
  rfl

/-- Entry (b, s, g, k) of the quantized grouped hidden array is lane `k` of the fake-quantized group `g` of the hidden row. -/
theorem v62_ix4 (x0 : (⟨S2x2048x4096, .f32⟩ : BufTy).Contents (Elt Ideal)) (x1 x2 : (⟨S11008x4096, .f32⟩ : BufTy).Contents (Elt Ideal))
    (b : Fin 2) (s : Fin 2048) (g : Fin 86) (k : Fin 128) :
    val_main_v62 (F := Ideal) x0 x1 x2 (ix4 b s g k)
      = qd (fun k' => val_main_v48 (F := Ideal) x0 x1 x2 (ix3 b s (col11008 g k'))) k := by
  have h57 : idx_main_v52 (idx_main_v57 (ix4 b s g k)) = ix3 b s g := by
    funext a
    match a with
    | ⟨0, _⟩ => rfl
    | ⟨1, _⟩ => rfl
    | ⟨2, _⟩ => rfl
  rw [val_main_v62_apply, val_main_v60_apply, val_main_v61_apply, val_main_call8_v4_apply, val_main_call8_v2_apply,
    val_main_call8_v1_apply, val_main_v59_apply, val_main_v58_apply, val_main_v57_apply,
    v56_scale x0 x1 x2 b s g _ h57, v49_ix4]
  rfl

/-- The reference's quantized hidden array at (b, s, n): the hidden row of (b, s) quantized group by group, at column `n`. -/
theorem ref_hq (x0 : (⟨S2x2048x4096, .f32⟩ : BufTy).Contents (Elt Ideal)) (x1 x2 : (⟨S11008x4096, .f32⟩ : BufTy).Contents (Elt Ideal))
    (b : Fin 2) (s : Fin 2048) (n : Fin 11008) :
    val_main_v63 (F := Ideal) x0 x1 x2 (ix3 b s n)
      = hqRow (fun h' => val_main_v14 (F := Ideal) x0 (ix3 b s h')) (val_main_v29 (F := Ideal) x1) (val_main_v45 (F := Ideal) x2) n := by
  have hi : idx_main_v63 (ix3 b s n)
      = ix4 b s (⟨n.val / 128, by have := n.isLt; omega⟩ : Fin 86) (⟨n.val % 128, Nat.mod_lt _ (by norm_num)⟩ : Fin 128) := by
    funext a
    match a with
    | ⟨0, _⟩ => apply Fin.ext; have := b.isLt; have := s.isLt; have := n.isLt; show ((b.val * 2048 + s.val) * 11008 + n.val) / 22544384 = b.val; omega
    | ⟨1, _⟩ => apply Fin.ext; have := b.isLt; have := s.isLt; have := n.isLt; show ((b.val * 2048 + s.val) * 11008 + n.val) / 11008 % 2048 = s.val; omega
    | ⟨2, _⟩ => apply Fin.ext; have := b.isLt; have := s.isLt; have := n.isLt; show ((b.val * 2048 + s.val) * 11008 + n.val) / 128 % 86 = n.val / 128; omega
    | ⟨3, _⟩ => apply Fin.ext; have := b.isLt; have := s.isLt; have := n.isLt; show ((b.val * 2048 + s.val) * 11008 + n.val) % 128 = n.val % 128; omega
  have hH : (fun n' => val_main_v48 (F := Ideal) x0 x1 x2 (ix3 b s n'))
      = hidRow (fun h' => val_main_v14 (F := Ideal) x0 (ix3 b s h')) (val_main_v29 (F := Ideal) x1) (val_main_v45 (F := Ideal) x2) :=
    funext fun n' => v48_ix3 x0 x1 x2 b s n'
  rw [val_main_v63_apply, hi, v62_ix4]
  unfold hqRow
  rw [← hH]
  rfl

end Cert.ReferenceIdeal.RefValue
-- ==== Proof.RefOut.lean ====
/-
  The reference's result read at an index: for one row (b, s), the output is the quantized hidden row against the
  quantized down weights, `out h = ∑ n, hq n * wd[h, n]` (`ref_out`), with the row of quantized activations and the
  three quantized weight arrays kept as they are.
-/
import proofs.«118606_j55250459295887_2_alg».proof.Proof.RefHidden

noncomputable section

open scoped BigOperators

namespace Cert.ReferenceIdeal.RefValue

open Cert.ReferenceIdeal Cert.ReferenceIdeal.Gen Cert.ReferenceIdeal.Read Idealize.ShloMosaic Idealize.ShloMosaic.ValueIdx Cert.QuantMlp

/-- The reference's result at (b, s, h). -/
theorem ref_out (x0 : (⟨S2x2048x4096, .f32⟩ : BufTy).Contents (Elt Ideal)) (x1 x2 : (⟨S11008x4096, .f32⟩ : BufTy).Contents (Elt Ideal))
    (x3 : (⟨S4096x11008, .f32⟩ : BufTy).Contents (Elt Ideal)) (b : Fin 2) (s : Fin 2048) (h : Fin 4096) :
    val_main_v79 (F := Ideal) x0 x1 x2 x3 (ix3 b s h)
      = outRow (fun h' => val_main_v14 (F := Ideal) x0 (ix3 b s h')) (val_main_v29 (F := Ideal) x1) (val_main_v45 (F := Ideal) x2)
          (val_main_v78 (F := Ideal) x3) h := by
  rw [val_main_v79_apply]
  unfold outRow
  refine Finset.sum_congr rfl fun n _ => ?_
  have hl : lidx_main_v79 (ix3 b s h) n = ix3 b s n := by
    funext a
    match a with
    | ⟨0, _⟩ => rfl
    | ⟨1, _⟩ => rfl
    | ⟨2, _⟩ => rfl
  have hr : ridx_main_v79 (ix3 b s h) n = ix2 h n := by
    funext a
    match a with
    | ⟨0, _⟩ => rfl
    | ⟨1, _⟩ => rfl
  rw [hl, hr, ref_hq]

end Cert.ReferenceIdeal.RefValue
-- ==== Proof.Bridge.lean ====
/-
  The two programs' results are one function of the arguments.

  Reference, entry (b, s, h): `outRow` of row (b, s) of its quantized activations, its three quantized weight arrays.
  Kernel, entry (b, s, h): `outRow` of row 2048 b + s of ITS quantized activations [4096, 4096], its three quantized weight
  arrays.  The weight arrays are the same terms on both sides; a row of either program's quantized activations is the
  group-by-group quantization `qrow4096` of the same row of x, since row 2048 b + s of x viewed [4096, 4096] is row (b, s).
-/
import proofs.«118606_j55250459295887_2_alg».proof.Proof.KernelValue
import proofs.«118606_j55250459295887_2_alg».proof.Proof.HostW
import proofs.«118606_j55250459295887_2_alg».proof.Proof.HostX
import proofs.«118606_j55250459295887_2_alg».proof.Proof.RefOut

set_option maxRecDepth 16384

noncomputable section

namespace Cert.Bridge

open Idealize.ShloMosaic Idealize.ShloMosaic.TcCoe Idealize.SL.Sem Idealize.ShloMosaic.ValueIdx Cert.QuantMlp

theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (x0 : (⟨Cert.ReferenceIdeal.S2x2048x4096, .f32⟩ : BufTy).Contents (Elt Ideal))
    (x1 x2 : (⟨Cert.ReferenceIdeal.S11008x4096, .f32⟩ : BufTy).Contents (Elt Ideal))
    (x3 : (⟨Cert.ReferenceIdeal.S4096x11008, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3)) :
    Cert.ReferenceIdeal.Read.val_main_v79 (F := Ideal) x0 x1 x2 x3
      = Cert.KernelIdeal.Gen.W20 m ρ c (Proc.devRef .tc Cert.KernelIdeal.main_v67) := by
  subst h0 h1 h2 h3
  funext i
  obtain ⟨b, s, h, rfl⟩ : ∃ (b : Fin 2) (s : Fin 2048) (h : Fin 4096), i = ix3 b s h := ⟨i 0, i 1, i 2, eq_ix3 i⟩
  rw [Cert.ReferenceIdeal.RefValue.ref_out]
  refine Eq.trans ?_ (Cert.KernelIdeal.KValue.result_apply m ρ c b s h).symm
  rw [Cert.KernelIdeal.HostValue.v32_eq, Cert.KernelIdeal.HostValue.v48_eq, Cert.KernelIdeal.HostValue.v64_eq]
  refine congrArg (fun xr => outRow xr _ _ _ h) (funext fun h' => ?_)
  rw [Cert.ReferenceIdeal.RefValue.ref_x, Cert.KernelIdeal.HostValue.v16_apply]
  refine congrArg (fun g => qrow4096 g h') (funext fun h'' => ?_)
  refine congrArg _ (funext fun a => ?_)
  have hs := s.isLt
  match a with
  | ⟨0, _⟩ => exact Fin.ext (by show b.val = (b.val * 2048 + s.val) / 2048; omega)
  | ⟨1, _⟩ => exact Fin.ext (by show s.val = (b.val * 2048 + s.val) % 2048; omega)
  | ⟨2, _⟩ => rfl

end Cert.Bridge

end
-- ==== Proof.lean ====
/-
  The certificate of a group-quantized SwiGLU MLP: x [2, 2048, 4096], gate / up weights [11008, 4096], down weights
  [4096, 11008].  Every array is fake-quantized in groups of 128 along its last axis (scale = max |·| / 127 bounded below
  by eps; round to nearest even; clip to [-127, 127]; multiply back), the hidden activation silu(gate) · up is quantized
  the same way, and the output is the quantized hidden activation against the quantized down weights.

  The kernel program quantizes the four arrays on the host, forms the quantized hidden activation in a first grid of
  8 × 43 tiles (each tile [512, 256] holds whole groups), and accumulates the down product over the 43 column blocks in a
  second grid.  The reference does the same on whole arrays.  Over the extended reals the two results are one function of
  the arguments: per row, `Cert.QuantMlp.outRow` (Proof/Spec.lean).  The only algebra is splitting a finite sum into
  consecutive blocks (Proof/BlockSum.lean); no finiteness of the inputs is used.

  The frames of the two kernel programs are the generated ones; the reference's frame is its generated run with the result
  dropped; the ideal pass rewrote nothing.
-/
import proofs.«118606_j55250459295887_2_alg».proof.Defs
import proofs.«118606_j55250459295887_2_alg».proof.Proof.Gen.Kernel
import proofs.«118606_j55250459295887_2_alg».proof.Proof.Gen.Kernel.Skeleton
import proofs.«118606_j55250459295887_2_alg».proof.Proof.Gen.Kernel.Launch
import proofs.«118606_j55250459295887_2_alg».proof.Proof.Gen.Kernel.Points
import proofs.«118606_j55250459295887_2_alg».proof.Proof.Gen.Kernel.Frame
import proofs.«118606_j55250459295887_2_alg».proof.Proof.Gen.KernelIdeal
import proofs.«118606_j55250459295887_2_alg».proof.Proof.Gen.KernelIdeal.Skeleton
import proofs.«118606_j55250459295887_2_alg».proof.Proof.Gen.KernelIdeal.Launch
import proofs.«118606_j55250459295887_2_alg».proof.Proof.Gen.KernelIdeal.Points
import proofs.«118606_j55250459295887_2_alg».proof.Proof.Gen.KernelIdeal.Frame
import proofs.«118606_j55250459295887_2_alg».proof.Proof.Gen.ReferenceIdeal
import proofs.«118606_j55250459295887_2_alg».proof.Proof.Gen.Pre_finite_inputs
import proofs.«118606_j55250459295887_2_alg».proof.Proof.Gen.ReferenceIdeal.Run
import proofs.«118606_j55250459295887_2_alg».proof.Proof.Gen.ReferenceIdeal.Read
import proofs.«118606_j55250459295887_2_alg».proof.Proof.KernelRun
import proofs.«118606_j55250459295887_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result buffer ends at the fold of its segments, the reference's at its composed
    term, and the two are one function of arguments that agree. -/
theorem algebraic : Cert.algebraic_KernelIdeal_ReferenceIdeal := by
  intro m ρ m' ρ' _ hagree
  refine ⟨fun c => Cert.KernelIdeal.Gen.W20 m ρ c (Proc.devRef .tc Cert.KernelIdeal.main_v67),
    Cert.KernelIdeal.KRun.run_mem (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq]
  exact Cert.Bridge.result_eq m ρ c _ _ _ _ (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
